-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S16384x2048 .f32) (main_arg1 : FVec F S2048x2048 .f32) (main_arg2 : FVec F S2048 .f32) (main_arg3 : FVec F S2048x2048 .f32) (main_arg4 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S256x2048 : Shape := ⟨2, ![256, 2048]⟩
abbrev S256x256 : Shape := ⟨2, ![256, 256]⟩
abbrev S1x256 : Shape := ⟨2, ![1, 256]⟩

abbrev nBuf : Space → Nat
  | .hbm => 28
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .i32⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S1x2048, .f32⟩
  | .hbm, ⟨26, _⟩ => ⟨S1x2048, .f32⟩
  | .hbm, ⟨27, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S1x2048, .f32⟩
  | .local _ .vmem, ⟨4, _⟩ => ⟨S2048x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v0 : Ref sig .tc := ⟨.hbm, 13, rfl⟩
abbrev main_call1_v0 : Ref sig .tc := ⟨.hbm, 14, rfl⟩
abbrev main_call1_c : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_cst : Ref sig .tc := ⟨.hbm, 20, rfl⟩
abbrev main_call1_v5 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2048x2048 : S_.BroadcastsInDim S2048x2048 (![] : Fin 0 → Fin S2048x2048.rank)
  transposes_S2048x2048_S2048x2048_1_0 : S2048x2048.Transposes [1, 0] S2048x2048
  shapeCasts_S2048_S1x2048 : S2048.ShapeCasts S1x2048
  inb_S256x2048_S256x256_0_0 : ∀ a, (![0, 0] : Fin 2 → Nat) a + S256x256.size a ≤ S256x2048.size a
  h_S256x256 : 0 < S256x256.numel
  inb_S2048x2048_S256x256_0_0 : ∀ a, (![0, 0] : Fin 2 → Nat) a + S256x256.size a ≤ S2048x2048.size a
  shapeCasts_S256x256_S256x256 : S256x256.ShapeCasts S256x256
  inb_S256x2048_S256x256_0_256 : ∀ a, (![0, 256] : Fin 2 → Nat) a + S256x256.size a ≤ S256x2048.size a
  inb_S2048x2048_S256x256_256_0 : ∀ a, (![256, 0] : Fin 2 → Nat) a + S256x256.size a ≤ S2048x2048.size a
  inb_S256x2048_S256x256_0_512 : ∀ a, (![0, 512] : Fin 2 → Nat) a + S256x256.size a ≤ S256x2048.size a
  inb_S2048x2048_S256x256_512_0 : ∀ a, (![512, 0] : Fin 2 → Nat) a + S256x256.size a ≤ S2048x2048.size a
  inb_S256x2048_S256x256_0_768 : ∀ a, (![0, 768] : Fin 2 → Nat) a + S256x256.size a ≤ S256x2048.size a
  inb_S2048x2048_S256x256_768_0 : ∀ a, (![768, 0] : Fin 2 → Nat) a + S256x256.size a ≤ S2048x2048.size a
  inb_S256x2048_S256x256_0_1024 : ∀ a, (![0, 1024] : Fin 2 → Nat) a + S256x256.size a ≤ S256x2048.size a
  inb_S2048x2048_S256x256_1024_0 : ∀ a, (![1024, 0] : Fin 2 → Nat) a + S256x256.size a ≤ S2048x2048.size a
  inb_S256x2048_S256x256_0_1280 : ∀ a, (![0, 1280] : Fin 2 → Nat) a + S256x256.size a ≤ S256x2048.size a
  inb_S2048x2048_S256x256_1280_0 : ∀ a, (![1280, 0] : Fin 2 → Nat) a + S256x256.size a ≤ S2048x2048.size a
  inb_S256x2048_S256x256_0_1536 : ∀ a, (![0, 1536] : Fin 2 → Nat) a + S256x256.size a ≤ S256x2048.size a
  inb_S2048x2048_S256x256_1536_0 : ∀ a, (![1536, 0] : Fin 2 → Nat) a + S256x256.size a ≤ S2048x2048.size a
  inb_S256x2048_S256x256_0_1792 : ∀ a, (![0, 1792] : Fin 2 → Nat) a + S256x256.size a ≤ S256x2048.size a
  inb_S2048x2048_S256x256_1792_0 : ∀ a, (![1792, 0] : Fin 2 → Nat) a + S256x256.size a ≤ S2048x2048.size a
  inb_S1x2048_S1x256_0_0 : ∀ a, (![0, 0] : Fin 2 → Nat) a + S1x256.size a ≤ S1x2048.size a
  h_S1x256 : 0 < S1x256.numel
  shapeCasts_S1x256_S1x256 : S1x256.ShapeCasts S1x256
  broadcasts_S1x256_S256x256 : S1x256.Broadcasts S256x256
  inb_S2048x2048_S256x256_256_256 : ∀ a, (![256, 256] : Fin 2 → Nat) a + S256x256.size a ≤ S2048x2048.size a
  inb_S2048x2048_S256x256_512_256 : ∀ a, (![512, 256] : Fin 2 → Nat) a + S256x256.size a ≤ S2048x2048.size a
  inb_S2048x2048_S256x256_768_256 : ∀ a, (![768, 256] : Fin 2 → Nat) a + S256x256.size a ≤ S2048x2048.size a
  inb_S2048x2048_S256x256_1024_256 : ∀ a, (![1024, 256] : Fin 2 → Nat) a + S256x256.size a ≤ S2048x2048.size a
  inb_S2048x2048_S256x256_1280_256 : ∀ a, (![1280, 256] : Fin 2 → Nat) a + S256x256.size a ≤ S2048x2048.size a
  inb_S2048x2048_S256x256_1536_256 : ∀ a, (![1536, 256] : Fin 2 → Nat) a + S256x256.size a ≤ S2048x2048.size a
  inb_S2048x2048_S256x256_1792_256 : ∀ a, (![1792, 256] : Fin 2 → Nat) a + S256x256.size a ≤ S2048x2048.size a
  inb_S1x2048_S1x256_0_256 : ∀ a, (![0, 256] : Fin 2 → Nat) a + S1x256.size a ≤ S1x2048.size a
  inb_S2048x2048_S256x256_512_512 : ∀ a, (![512, 512] : Fin 2 → Nat) a + S256x256.size a ≤ S2048x2048.size a
  inb_S2048x2048_S256x256_768_512 : ∀ a, (![768, 512] : Fin 2 → Nat) a + S256x256.size a ≤ S2048x2048.size a
  inb_S2048x2048_S256x256_1024_512 : ∀ a, (![1024, 512] : Fin 2 → Nat) a + S256x256.size a ≤ S2048x2048.size a
  inb_S2048x2048_S256x256_1280_512 : ∀ a, (![1280, 512] : Fin 2 → Nat) a + S256x256.size a ≤ S2048x2048.size a
  inb_S2048x2048_S256x256_1536_512 : ∀ a, (![1536, 512] : Fin 2 → Nat) a + S256x256.size a ≤ S2048x2048.size a
  inb_S2048x2048_S256x256_1792_512 : ∀ a, (![1792, 512] : Fin 2 → Nat) a + S256x256.size a ≤ S2048x2048.size a
  inb_S1x2048_S1x256_0_512 : ∀ a, (![0, 512] : Fin 2 → Nat) a + S1x256.size a ≤ S1x2048.size a
  inb_S2048x2048_S256x256_768_768 : ∀ a, (![768, 768] : Fin 2 → Nat) a + S256x256.size a ≤ S2048x2048.size a
  inb_S2048x2048_S256x256_1024_768 : ∀ a, (![1024, 768] : Fin 2 → Nat) a + S256x256.size a ≤ S2048x2048.size a
  inb_S2048x2048_S256x256_1280_768 : ∀ a, (![1280, 768] : Fin 2 → Nat) a + S256x256.size a ≤ S2048x2048.size a
  inb_S2048x2048_S256x256_1536_768 : ∀ a, (![1536, 768] : Fin 2 → Nat) a + S256x256.size a ≤ S2048x2048.size a
  inb_S2048x2048_S256x256_1792_768 : ∀ a, (![1792, 768] : Fin 2 → Nat) a + S256x256.size a ≤ S2048x2048.size a
  inb_S1x2048_S1x256_0_768 : ∀ a, (![0, 768] : Fin 2 → Nat) a + S1x256.size a ≤ S1x2048.size a
  inb_S2048x2048_S256x256_1024_1024 : ∀ a, (![1024, 1024] : Fin 2 → Nat) a + S256x256.size a ≤ S2048x2048.size a
  inb_S2048x2048_S256x256_1280_1024 : ∀ a, (![1280, 1024] : Fin 2 → Nat) a + S256x256.size a ≤ S2048x2048.size a
  inb_S2048x2048_S256x256_1536_1024 : ∀ a, (![1536, 1024] : Fin 2 → Nat) a + S256x256.size a ≤ S2048x2048.size a
  inb_S2048x2048_S256x256_1792_1024 : ∀ a, (![1792, 1024] : Fin 2 → Nat) a + S256x256.size a ≤ S2048x2048.size a
  inb_S1x2048_S1x256_0_1024 : ∀ a, (![0, 1024] : Fin 2 → Nat) a + S1x256.size a ≤ S1x2048.size a
  inb_S2048x2048_S256x256_1280_1280 : ∀ a, (![1280, 1280] : Fin 2 → Nat) a + S256x256.size a ≤ S2048x2048.size a
  inb_S2048x2048_S256x256_1536_1280 : ∀ a, (![1536, 1280] : Fin 2 → Nat) a + S256x256.size a ≤ S2048x2048.size a
  inb_S2048x2048_S256x256_1792_1280 : ∀ a, (![1792, 1280] : Fin 2 → Nat) a + S256x256.size a ≤ S2048x2048.size a
  inb_S1x2048_S1x256_0_1280 : ∀ a, (![0, 1280] : Fin 2 → Nat) a + S1x256.size a ≤ S1x2048.size a
  inb_S2048x2048_S256x256_1536_1536 : ∀ a, (![1536, 1536] : Fin 2 → Nat) a + S256x256.size a ≤ S2048x2048.size a
  inb_S2048x2048_S256x256_1792_1536 : ∀ a, (![1792, 1536] : Fin 2 → Nat) a + S256x256.size a ≤ S2048x2048.size a
  inb_S1x2048_S1x256_0_1536 : ∀ a, (![0, 1536] : Fin 2 → Nat) a + S1x256.size a ≤ S1x2048.size a
  inb_S2048x2048_S256x256_1792_1792 : ∀ a, (![1792, 1792] : Fin 2 → Nat) a + S256x256.size a ≤ S2048x2048.size a
  inb_S1x2048_S1x256_0_1792 : ∀ a, (![0, 1792] : Fin 2 → Nat) a + S1x256.size a ≤ S1x2048.size a
  inb_S2048x2048_S256x256_0_256 : ∀ a, (![0, 256] : Fin 2 → Nat) a + S256x256.size a ≤ S2048x2048.size a
  inb_S2048x2048_S256x256_0_512 : ∀ a, (![0, 512] : Fin 2 → Nat) a + S256x256.size a ≤ S2048x2048.size a
  inb_S2048x2048_S256x256_256_512 : ∀ a, (![256, 512] : Fin 2 → Nat) a + S256x256.size a ≤ S2048x2048.size a
  inb_S2048x2048_S256x256_0_768 : ∀ a, (![0, 768] : Fin 2 → Nat) a + S256x256.size a ≤ S2048x2048.size a
  inb_S2048x2048_S256x256_256_768 : ∀ a, (![256, 768] : Fin 2 → Nat) a + S256x256.size a ≤ S2048x2048.size a
  inb_S2048x2048_S256x256_512_768 : ∀ a, (![512, 768] : Fin 2 → Nat) a + S256x256.size a ≤ S2048x2048.size a
  inb_S2048x2048_S256x256_0_1024 : ∀ a, (![0, 1024] : Fin 2 → Nat) a + S256x256.size a ≤ S2048x2048.size a
  inb_S2048x2048_S256x256_256_1024 : ∀ a, (![256, 1024] : Fin 2 → Nat) a + S256x256.size a ≤ S2048x2048.size a
  inb_S2048x2048_S256x256_512_1024 : ∀ a, (![512, 1024] : Fin 2 → Nat) a + S256x256.size a ≤ S2048x2048.size a
  inb_S2048x2048_S256x256_768_1024 : ∀ a, (![768, 1024] : Fin 2 → Nat) a + S256x256.size a ≤ S2048x2048.size a
  inb_S2048x2048_S256x256_0_1280 : ∀ a, (![0, 1280] : Fin 2 → Nat) a + S256x256.size a ≤ S2048x2048.size a
  inb_S2048x2048_S256x256_256_1280 : ∀ a, (![256, 1280] : Fin 2 → Nat) a + S256x256.size a ≤ S2048x2048.size a
  inb_S2048x2048_S256x256_512_1280 : ∀ a, (![512, 1280] : Fin 2 → Nat) a + S256x256.size a ≤ S2048x2048.size a
  inb_S2048x2048_S256x256_768_1280 : ∀ a, (![768, 1280] : Fin 2 → Nat) a + S256x256.size a ≤ S2048x2048.size a
  inb_S2048x2048_S256x256_1024_1280 : ∀ a, (![1024, 1280] : Fin 2 → Nat) a + S256x256.size a ≤ S2048x2048.size a
  inb_S2048x2048_S256x256_0_1536 : ∀ a, (![0, 1536] : Fin 2 → Nat) a + S256x256.size a ≤ S2048x2048.size a
  inb_S2048x2048_S256x256_256_1536 : ∀ a, (![256, 1536] : Fin 2 → Nat) a + S256x256.size a ≤ S2048x2048.size a
  inb_S2048x2048_S256x256_512_1536 : ∀ a, (![512, 1536] : Fin 2 → Nat) a + S256x256.size a ≤ S2048x2048.size a
  inb_S2048x2048_S256x256_768_1536 : ∀ a, (![768, 1536] : Fin 2 → Nat) a + S256x256.size a ≤ S2048x2048.size a
  inb_S2048x2048_S256x256_1024_1536 : ∀ a, (![1024, 1536] : Fin 2 → Nat) a + S256x256.size a ≤ S2048x2048.size a
  inb_S2048x2048_S256x256_1280_1536 : ∀ a, (![1280, 1536] : Fin 2 → Nat) a + S256x256.size a ≤ S2048x2048.size a
  inb_S2048x2048_S256x256_0_1792 : ∀ a, (![0, 1792] : Fin 2 → Nat) a + S256x256.size a ≤ S2048x2048.size a
  inb_S2048x2048_S256x256_256_1792 : ∀ a, (![256, 1792] : Fin 2 → Nat) a + S256x256.size a ≤ S2048x2048.size a
  inb_S2048x2048_S256x256_512_1792 : ∀ a, (![512, 1792] : Fin 2 → Nat) a + S256x256.size a ≤ S2048x2048.size a
  inb_S2048x2048_S256x256_768_1792 : ∀ a, (![768, 1792] : Fin 2 → Nat) a + S256x256.size a ≤ S2048x2048.size a
  inb_S2048x2048_S256x256_1024_1792 : ∀ a, (![1024, 1792] : Fin 2 → Nat) a + S256x256.size a ≤ S2048x2048.size a
  inb_S2048x2048_S256x256_1280_1792 : ∀ a, (![1280, 1792] : Fin 2 → Nat) a + S256x256.size a ≤ S2048x2048.size a
  inb_S2048x2048_S256x256_1536_1792 : ∀ a, (![1536, 1792] : Fin 2 → Nat) a + S256x256.size a ≤ S2048x2048.size a
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .f32 = 32 ∨ (Rect.block (s := S2048x2048) S2048x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S16384x2048.size a
  hwx0_5 : ∀ i : grid0.Coords, EltTy.bits .f32 = 32 ∨ (Rect.block (s := S16384x2048) S256x2048.size (cc0_transform_5 i) (hinb0_5 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .i32⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S2048x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S2048x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S2048x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v0 : Ref sig .tc := ⟨.hbm, 13, rfl⟩
abbrev main_call1_v0 : Ref sig .tc := ⟨.hbm, 14, rfl⟩
abbrev main_call1_c : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_cst : Ref sig .tc := ⟨.hbm, 20, rfl⟩
abbrev main_call1_v5 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_call2_cst : Ref sig .tc := ⟨.hbm, 28, rfl⟩
abbrev main_call2_v0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call3_cst : Ref sig .tc := ⟨.hbm, 36, rfl⟩
abbrev main_call3_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call4_cst : Ref sig .tc := ⟨.hbm, 44, rfl⟩
abbrev main_call4_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.TwoLayers.lean ====
/-
  Two dense layers with triangular weights, as one function of the arrays.

  The first layer is h = max(x · A + a, 0) and the second is y = h · B + b, where x has R rows of 2048 entries,
  A and B are 2048 × 2048 and a, b are rows of 2048 entries. Entry (r, c) of the result depends on row r of x only.
  A is the transpose of an upper-triangular matrix (its entry (i, j) vanishes for i < j) and B the transpose of a
  lower-triangular one (its entry (j, c) vanishes for c < j); these two shapes of zeros are named here as functions
  of an arbitrary square matrix W.
-/
import Idealize.ShloMosaic.PureOps.Ideal
import Idealize.ShloMosaic.Lib.ValueIdx

noncomputable section

namespace Cert.TwoLayers

open Idealize.ShloMosaic Idealize.ShloMosaic.ValueIdx

/-- A matrix of extended reals with a rows and b columns, as a function of its index. -/
abbrev Mat (a b : ℕ) : Type := (⟨2, ![a, b]⟩ : Shape).Idx → EReal

/-- Entry (r, j) of the first layer: max(Σ i, x (r, i) · A (i, j) + a (0, j), 0). -/
def hidden {R : ℕ} (X : Mat R 2048) (A : Mat 2048 2048) (a : Mat 1 2048) (r : Fin R) (j : Fin 2048) : EReal :=
  max ((∑ i : Fin 2048, X (ix2 r i) * A (ix2 i j)) + a (ix2 0 j)) 0

/-- Entry (r, c) of the second layer applied to the first: Σ j, h (r, j) · B (j, c) + b (0, c). -/
def out {R : ℕ} (X : Mat R 2048) (A : Mat 2048 2048) (a : Mat 1 2048) (B : Mat 2048 2048) (b : Mat 1 2048)
    (r : Fin R) (c : Fin 2048) : EReal :=
  (∑ j : Fin 2048, hidden X A a r j * B (ix2 j c)) + b (ix2 0 c)

/-- The whole result as an array. -/
def G {R : ℕ} (X : Mat R 2048) (A : Mat 2048 2048) (a : Mat 1 2048) (B : Mat 2048 2048) (b : Mat 1 2048) : Mat R 2048 :=
  fun y => out X A a B b (y 0) (y 1)

theorem G_apply {R : ℕ} (X : Mat R 2048) (A : Mat 2048 2048) (a : Mat 1 2048) (B : Mat 2048 2048) (b : Mat 1 2048)
    (r : Fin R) (c : Fin 2048) : G X A a B b (ix2 r c) = out X A a B b r c := rfl

/-- The result at a row depends on that row of x only: if row r of X is row r' of X', the results agree there. -/
theorem out_congr_row {R R' : ℕ} (X : Mat R 2048) (X' : Mat R' 2048) (A : Mat 2048 2048) (a : Mat 1 2048)
    (B : Mat 2048 2048) (b : Mat 1 2048) (r : Fin R) (r' : Fin R') (h : ∀ i, X (ix2 r i) = X' (ix2 r' i)) (c : Fin 2048) :
    out X A a B b r c = out X' A a B b r' c := by
  unfold out hidden
  simp only [h]

/-- The transpose of the upper triangle of W: entry (i, j) is W (j, i) where j ≤ i and 0 where i < j. -/
def upperT (W : Mat 2048 2048) : Mat 2048 2048 :=
  fun y => if (y 0).val < (y 1).val then 0 else W (ix2 (y 1) (y 0))

/-- The transpose of the lower triangle of W: entry (j, c) is W (c, j) where j ≤ c and 0 where c < j. -/
def lowerT (W : Mat 2048 2048) : Mat 2048 2048 :=
  fun y => if (y 1).val < (y 0).val then 0 else W (ix2 (y 1) (y 0))

theorem upperT_zero (W : Mat 2048 2048) (i j : Fin 2048) (h : i.val < j.val) : upperT W (ix2 i j) = 0 := by
  show (if i.val < j.val then (0 : EReal) else _) = 0
  rw [if_pos h]

theorem lowerT_zero (W : Mat 2048 2048) (j c : Fin 2048) (h : c.val < j.val) : lowerT W (ix2 j c) = 0 := by
  show (if c.val < j.val then (0 : EReal) else _) = 0
  rw [if_pos h]

/-- A vector of 2048 entries laid out as a one-row matrix. -/
def row (v : (⟨1, ![2048]⟩ : Shape).Idx → EReal) : Mat 1 2048 := fun y => v (ix1 (y 1))

end Cert.TwoLayers

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.BlockReads.lean ====
/-
  Reading a block of the kernel body at an entry.

  The body of the fused kernel loads 256 × 256 (and 1 × 256) pieces of its operand blocks through unit-stride rectangles,
  multiplies pairs of them into a zero accumulator and adds the products up. Here are the three readings everything
  else rests on: a load through a rectangle at offsets (o0, o1) reads the buffer's contents at (o0 + r, o1 + j); the
  rectangle places its local index (r, j) at (o0 + r, o1 + j); and entry (r, q) of one block product into the zero
  accumulator is Σ j, a (r, j) · b (j, q).
-/
import proofs.«124259_j16827681865729_2_alg».proof.Proof.Gen.KernelIdeal.Frame
import proofs.«124259_j16827681865729_2_alg».proof.Proof.TwoLayers
import proofs.«124259_j16827681865729_2_alg».proof.Proof.LibDotRead
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Body
open Cert.KernelIdeal Cert.KernelIdeal.Gen Cert.TwoLayers

theorem lt_row {m n o0 o1 s0 s1 : ℕ} (inb : ∀ a, (![o0, o1] : Fin 2 → ℕ) a + (![s0, s1] : Fin 2 → ℕ) a ≤ (⟨2, ![m, n]⟩ : Shape).size a)
    (r : Fin s0) : o0 + r.val < m := by
  have h : o0 + s0 ≤ m := inb 0
  have := r.isLt
  omega

theorem lt_col {m n o0 o1 s0 s1 : ℕ} (inb : ∀ a, (![o0, o1] : Fin 2 → ℕ) a + (![s0, s1] : Fin 2 → ℕ) a ≤ (⟨2, ![m, n]⟩ : Shape).size a)
    (j : Fin s1) : o1 + j.val < n := by
  have h : o1 + s1 ≤ n := inb 1
  have := j.isLt
  omega

/-- A load through a unit-stride rectangle of a whole buffer holding x reads x at the offset coordinates. -/
theorem readAt_unit2 {m n : ℕ} (M : Memref sig .tc .vmem ⟨2, ![m, n]⟩ .f32) (hM : M.IsWhole) (x : Vec Ideal ⟨2, ![m, n]⟩ .f32)
    (o0 o1 s0 s1 : ℕ) (inb : ∀ a, (![o0, o1] : Fin 2 → ℕ) a + (![s0, s1] : Fin 2 → ℕ) a ≤ (⟨2, ![m, n]⟩ : Shape).size a)
    (r : Fin s0) (j : Fin s1) :
    (View.readAt (Elt Ideal) M.view (Rect.unit (s := ⟨2, ![m, n]⟩) ![o0, o1] ![s0, s1] inb).toLoadRect (hM.unread x)
        : (⟨2, ![s0, s1]⟩ : Shape).Idx → EReal) (ix2 r j)
      = x (ix2 ⟨o0 + r.val, lt_row inb r⟩ ⟨o1 + j.val, lt_col inb j⟩) := by
  rw [View.readAt_eq_ld, hM.read_unread]
  show x _ = x _
  congr 1
  funext a
  apply Fin.ext
  match a with
  | ⟨0, _⟩ => show o0 + 1 * r.val = o0 + r.val; omega
  | ⟨1, _⟩ => show o1 + 1 * j.val = o1 + j.val; omega

theorem fin_zero_add {n : ℕ} (r : Fin n) (h : 0 + r.val < n) : (⟨0 + r.val, h⟩ : Fin n) = r := Fin.ext (Nat.zero_add _)

theorem ofBits_zero : (FloatOps.ofBits (F := Ideal) .f32 0#32 : EReal) = 0 := Ideal.ofBits_zero_f32

theorem plain256 : Cert.DotRead.Plain (m := 256) (n := 256) (p := 256) dot_S256x256_S256x256_S256x256_1_0_0_1_n_n :=
  ⟨rfl, rfl, fun _ _ => rfl, fun _ _ => rfl, fun _ _ => rfl, fun _ _ => rfl⟩

/-- One block product into the zero accumulator, read at an entry. -/
theorem mm_apply (a b : FVec Ideal S256x256 .f32) (r q : Fin 256) :
    matmul dot_S256x256_S256x256_S256x256_1_0_0_1_n_n (some .fp32) a b
        (constant (F := Ideal) S256x256 .f32 0x00000000#32) (ix2 r q)
      = ∑ j : Fin 256, a (ix2 r j) * b (ix2 j q) :=
  Cert.DotRead.matmul_zero_apply _ plain256 _ a b r q

/-- The index a unit-stride rectangle gives a local index: the offsets added. -/
theorem emb_unit2 {m n : ℕ} (o0 o1 s0 s1 : ℕ) (inb : ∀ a, (![o0, o1] : Fin 2 → ℕ) a + (![s0, s1] : Fin 2 → ℕ) a ≤ (⟨2, ![m, n]⟩ : Shape).size a)
    (r : Fin s0) (j : Fin s1) :
    ((Rect.unit (s := ⟨2, ![m, n]⟩) ![o0, o1] ![s0, s1] inb).emb : (⟨2, ![s0, s1]⟩ : Shape).Idx → (⟨2, ![m, n]⟩ : Shape).Idx) (ix2 r j)
      = ix2 ⟨o0 + r.val, lt_row inb r⟩ ⟨o1 + j.val, lt_col inb j⟩ := by
  funext a
  apply Fin.ext
  match a with
  | ⟨0, _⟩ => show o0 + 1 * r.val = o0 + r.val; omega
  | ⟨1, _⟩ => show o1 + 1 * j.val = o1 + j.val; omega

end Cert.KernelIdeal.Body

end
-- ==== Proof.LibBlockSum.lean ====
/-
  A sum over consecutive blocks is the sum over all the terms.

  A contraction of length B * n computed B terms at a time — block i contributes the terms B * i, ..., B * i + B - 1,
  and the n partial sums are added — is the whole contraction: on an additive commutative monoid the order and the
  grouping of the terms do not matter. Stated for a sequence f : ℕ → M, with the blocks enumerated by Finset.range n
  and the terms inside a block by Fin B, and once more with the inner term given as a function of (block, position).
-/
import Mathlib.Algebra.BigOperators.Fin
import Mathlib.Data.Fintype.BigOperators
import Idealize.ShloMosaic.Lib.ValueIdx

namespace Cert.BlockSum

open scoped BigOperators

/-- The sum over n consecutive blocks of B terms each, block i being the terms at B * i + j for j below B, is the sum
    over all B * n terms. -/
theorem sum_blocks {M : Type*} [AddCommMonoid M] (f : ℕ → M) (B n : ℕ) :
    ∑ i ∈ Finset.range n, ∑ j : Fin B, f (B * i + j.val) = ∑ J : Fin (B * n), f J.val := by
  induction n with
  | zero => simp
  | succ n ih =>
    rw [Finset.sum_range_succ, ih, Fin.sum_univ_eq_sum_range (fun k => f k) (B * n),
      Fin.sum_univ_eq_sum_range (fun k => f (B * n + k)) B, Fin.sum_univ_eq_sum_range (fun k => f k) (B * (n + 1)),
      Nat.mul_succ, Finset.sum_range_add]

/-- The same with the term of block i at position j given as g i j, equal to the term of f at B * i + j. -/
theorem sum_blocks_of_eq {M : Type*} [AddCommMonoid M] (f : ℕ → M) (B n : ℕ) (g : ℕ → Fin B → M)
    (h : ∀ i j, g i j = f (B * i + j.val)) :
    ∑ i ∈ Finset.range n, ∑ j : Fin B, g i j = ∑ J : Fin (B * n), f J.val := by
  rw [← sum_blocks f B n]
  exact Finset.sum_congr rfl fun i _ => Finset.sum_congr rfl fun j _ => h i j

end Cert.BlockSum
-- ==== Proof.BlockSums.lean ====
/-
  A sum of 2048 terms as the sum of its eight consecutive blocks of 256 terms.

  On an additive commutative monoid the sum over Fin 2048 is the left-nested sum of the eight block sums, block k
  being the terms at 256 * k + j for j below 256. When the terms below 256 * t vanish, the blocks before t contribute
  nothing and the sum is 0 plus the blocks t, ..., 7; when the terms from 256 * (t + 1) on vanish, the blocks after t
  contribute nothing and the sum is 0 plus the blocks 0, ..., t.
-/
import Mathlib.Algebra.BigOperators.Fin
import Mathlib.Data.Fintype.BigOperators
import proofs.«124259_j16827681865729_2_alg».proof.Proof.LibBlockSum

namespace Cert.BlockSums

open scoped BigOperators

/-- The extension of a sequence on Fin 2048 to all naturals by zero. -/
def extZero {M : Type*} [AddCommMonoid M] (f : Fin 2048 → M) (n : ℕ) : M := if h : n < 2048 then f ⟨n, h⟩ else 0

/-- Block k of the extension, read at offset o = 256 * k, is the block of the sequence itself at offset o. -/
theorem extZero_block {M : Type*} [AddCommMonoid M] (f : Fin 2048 → M) (k o : ℕ) (ho : 256 * k = o)
    (hb : o + 256 ≤ 2048) :
    ∑ j : Fin 256, extZero f (256 * k + j.val) = ∑ j : Fin 256, f ⟨o + j.val, by omega⟩ := by
  subst ho
  exact Finset.sum_congr rfl fun j _ => dif_pos _

/-- The sum of the extension over the first 256 * 8 naturals is the sum of the sequence. -/
theorem extZero_total {M : Type*} [AddCommMonoid M] (f : Fin 2048 → M) :
    ∑ J : Fin (256 * 8), extZero f J.val = ∑ i : Fin 2048, f i := by
  show ∑ J : Fin 2048, extZero f J.val = ∑ i : Fin 2048, f i
  exact Finset.sum_congr rfl fun J _ => dif_pos J.isLt

/-- The sum of 2048 terms is the sum of its eight blocks of 256 terms. -/
theorem sum8 {M : Type*} [AddCommMonoid M] (f : Fin 2048 → M) :
    ∑ i, f i = ((((((((∑ j : Fin 256, f ⟨0 + j.val, by omega⟩) + (∑ j : Fin 256, f ⟨256 + j.val, by omega⟩)) + (∑ j : Fin 256, f ⟨512 + j.val, by omega⟩)) + (∑ j : Fin 256, f ⟨768 + j.val, by omega⟩)) + (∑ j : Fin 256, f ⟨1024 + j.val, by omega⟩)) + (∑ j : Fin 256, f ⟨1280 + j.val, by omega⟩)) + (∑ j : Fin 256, f ⟨1536 + j.val, by omega⟩)) + (∑ j : Fin 256, f ⟨1792 + j.val, by omega⟩)) := by
  rw [← extZero_total f, ← Cert.BlockSum.sum_blocks (extZero f) 256 8]
  rw [Finset.sum_range_succ, Finset.sum_range_succ, Finset.sum_range_succ, Finset.sum_range_succ,
    Finset.sum_range_succ, Finset.sum_range_succ, Finset.sum_range_succ, Finset.sum_range_succ,
    Finset.sum_range_zero, zero_add]
  rw [extZero_block f 0 0 rfl (by norm_num), extZero_block f 1 256 rfl (by norm_num), extZero_block f 2 512 rfl (by norm_num),
    extZero_block f 3 768 rfl (by norm_num), extZero_block f 4 1024 rfl (by norm_num), extZero_block f 5 1280 rfl (by norm_num),
    extZero_block f 6 1536 rfl (by norm_num), extZero_block f 7 1792 rfl (by norm_num)]

/-- With no term required to vanish: 0 plus all eight blocks. -/
theorem from0 {M : Type*} [AddCommMonoid M] (f : Fin 2048 → M) (hz : ∀ i : Fin 2048, i.val < 0 → f i = 0) :
    ∑ i, f i = ((((((((0 + (∑ j : Fin 256, f ⟨0 + j.val, by omega⟩)) + (∑ j : Fin 256, f ⟨256 + j.val, by omega⟩)) + (∑ j : Fin 256, f ⟨512 + j.val, by omega⟩)) + (∑ j : Fin 256, f ⟨768 + j.val, by omega⟩)) + (∑ j : Fin 256, f ⟨1024 + j.val, by omega⟩)) + (∑ j : Fin 256, f ⟨1280 + j.val, by omega⟩)) + (∑ j : Fin 256, f ⟨1536 + j.val, by omega⟩)) + (∑ j : Fin 256, f ⟨1792 + j.val, by omega⟩)) := by
  rw [sum8 f, zero_add]

/-- When the terms below 256 vanish, the sum is 0 plus the blocks from offset 256 on. -/
theorem from1 {M : Type*} [AddCommMonoid M] (f : Fin 2048 → M) (hz : ∀ i : Fin 2048, i.val < 256 → f i = 0) :
    ∑ i, f i = (((((((0 + (∑ j : Fin 256, f ⟨256 + j.val, by omega⟩)) + (∑ j : Fin 256, f ⟨512 + j.val, by omega⟩)) + (∑ j : Fin 256, f ⟨768 + j.val, by omega⟩)) + (∑ j : Fin 256, f ⟨1024 + j.val, by omega⟩)) + (∑ j : Fin 256, f ⟨1280 + j.val, by omega⟩)) + (∑ j : Fin 256, f ⟨1536 + j.val, by omega⟩)) + (∑ j : Fin 256, f ⟨1792 + j.val, by omega⟩)) := by
  have z0 : (∑ j : Fin 256, f ⟨0 + j.val, by omega⟩) = 0 :=
    Finset.sum_eq_zero fun j _ => hz _ (by dsimp only; omega)
  rw [sum8 f, z0]

/-- When the terms below 512 vanish, the sum is 0 plus the blocks from offset 512 on. -/
theorem from2 {M : Type*} [AddCommMonoid M] (f : Fin 2048 → M) (hz : ∀ i : Fin 2048, i.val < 512 → f i = 0) :
    ∑ i, f i = ((((((0 + (∑ j : Fin 256, f ⟨512 + j.val, by omega⟩)) + (∑ j : Fin 256, f ⟨768 + j.val, by omega⟩)) + (∑ j : Fin 256, f ⟨1024 + j.val, by omega⟩)) + (∑ j : Fin 256, f ⟨1280 + j.val, by omega⟩)) + (∑ j : Fin 256, f ⟨1536 + j.val, by omega⟩)) + (∑ j : Fin 256, f ⟨1792 + j.val, by omega⟩)) := by
  have z0 : (∑ j : Fin 256, f ⟨0 + j.val, by omega⟩) = 0 :=
    Finset.sum_eq_zero fun j _ => hz _ (by dsimp only; omega)
  have z1 : (∑ j : Fin 256, f ⟨256 + j.val, by omega⟩) = 0 :=
    Finset.sum_eq_zero fun j _ => hz _ (by dsimp only; omega)
  rw [sum8 f, z0, z1]
  simp only [add_zero]

/-- When the terms below 768 vanish, the sum is 0 plus the blocks from offset 768 on. -/
theorem from3 {M : Type*} [AddCommMonoid M] (f : Fin 2048 → M) (hz : ∀ i : Fin 2048, i.val < 768 → f i = 0) :
    ∑ i, f i = (((((0 + (∑ j : Fin 256, f ⟨768 + j.val, by omega⟩)) + (∑ j : Fin 256, f ⟨1024 + j.val, by omega⟩)) + (∑ j : Fin 256, f ⟨1280 + j.val, by omega⟩)) + (∑ j : Fin 256, f ⟨1536 + j.val, by omega⟩)) + (∑ j : Fin 256, f ⟨1792 + j.val, by omega⟩)) := by
  have z0 : (∑ j : Fin 256, f ⟨0 + j.val, by omega⟩) = 0 :=
    Finset.sum_eq_zero fun j _ => hz _ (by dsimp only; omega)
  have z1 : (∑ j : Fin 256, f ⟨256 + j.val, by omega⟩) = 0 :=
    Finset.sum_eq_zero fun j _ => hz _ (by dsimp only; omega)
  have z2 : (∑ j : Fin 256, f ⟨512 + j.val, by omega⟩) = 0 :=
    Finset.sum_eq_zero fun j _ => hz _ (by dsimp only; omega)
  rw [sum8 f, z0, z1, z2]
  simp only [add_zero]

/-- When the terms below 1024 vanish, the sum is 0 plus the blocks from offset 1024 on. -/
theorem from4 {M : Type*} [AddCommMonoid M] (f : Fin 2048 → M) (hz : ∀ i : Fin 2048, i.val < 1024 → f i = 0) :
    ∑ i, f i = ((((0 + (∑ j : Fin 256, f ⟨1024 + j.val, by omega⟩)) + (∑ j : Fin 256, f ⟨1280 + j.val, by omega⟩)) + (∑ j : Fin 256, f ⟨1536 + j.val, by omega⟩)) + (∑ j : Fin 256, f ⟨1792 + j.val, by omega⟩)) := by
  have z0 : (∑ j : Fin 256, f ⟨0 + j.val, by omega⟩) = 0 :=
    Finset.sum_eq_zero fun j _ => hz _ (by dsimp only; omega)
  have z1 : (∑ j : Fin 256, f ⟨256 + j.val, by omega⟩) = 0 :=
    Finset.sum_eq_zero fun j _ => hz _ (by dsimp only; omega)
  have z2 : (∑ j : Fin 256, f ⟨512 + j.val, by omega⟩) = 0 :=
    Finset.sum_eq_zero fun j _ => hz _ (by dsimp only; omega)
  have z3 : (∑ j : Fin 256, f ⟨768 + j.val, by omega⟩) = 0 :=
    Finset.sum_eq_zero fun j _ => hz _ (by dsimp only; omega)
  rw [sum8 f, z0, z1, z2, z3]
  simp only [add_zero]

/-- When the terms below 1280 vanish, the sum is 0 plus the blocks from offset 1280 on. -/
theorem from5 {M : Type*} [AddCommMonoid M] (f : Fin 2048 → M) (hz : ∀ i : Fin 2048, i.val < 1280 → f i = 0) :
    ∑ i, f i = (((0 + (∑ j : Fin 256, f ⟨1280 + j.val, by omega⟩)) + (∑ j : Fin 256, f ⟨1536 + j.val, by omega⟩)) + (∑ j : Fin 256, f ⟨1792 + j.val, by omega⟩)) := by
  have z0 : (∑ j : Fin 256, f ⟨0 + j.val, by omega⟩) = 0 :=
    Finset.sum_eq_zero fun j _ => hz _ (by dsimp only; omega)
  have z1 : (∑ j : Fin 256, f ⟨256 + j.val, by omega⟩) = 0 :=
    Finset.sum_eq_zero fun j _ => hz _ (by dsimp only; omega)
  have z2 : (∑ j : Fin 256, f ⟨512 + j.val, by omega⟩) = 0 :=
    Finset.sum_eq_zero fun j _ => hz _ (by dsimp only; omega)
  have z3 : (∑ j : Fin 256, f ⟨768 + j.val, by omega⟩) = 0 :=
    Finset.sum_eq_zero fun j _ => hz _ (by dsimp only; omega)
  have z4 : (∑ j : Fin 256, f ⟨1024 + j.val, by omega⟩) = 0 :=
    Finset.sum_eq_zero fun j _ => hz _ (by dsimp only; omega)
  rw [sum8 f, z0, z1, z2, z3, z4]
  simp only [add_zero]

/-- When the terms below 1536 vanish, the sum is 0 plus the blocks from offset 1536 on. -/
theorem from6 {M : Type*} [AddCommMonoid M] (f : Fin 2048 → M) (hz : ∀ i : Fin 2048, i.val < 1536 → f i = 0) :
    ∑ i, f i = ((0 + (∑ j : Fin 256, f ⟨1536 + j.val, by omega⟩)) + (∑ j : Fin 256, f ⟨1792 + j.val, by omega⟩)) := by
  have z0 : (∑ j : Fin 256, f ⟨0 + j.val, by omega⟩) = 0 :=
    Finset.sum_eq_zero fun j _ => hz _ (by dsimp only; omega)
  have z1 : (∑ j : Fin 256, f ⟨256 + j.val, by omega⟩) = 0 :=
    Finset.sum_eq_zero fun j _ => hz _ (by dsimp only; omega)
  have z2 : (∑ j : Fin 256, f ⟨512 + j.val, by omega⟩) = 0 :=
    Finset.sum_eq_zero fun j _ => hz _ (by dsimp only; omega)
  have z3 : (∑ j : Fin 256, f ⟨768 + j.val, by omega⟩) = 0 :=
    Finset.sum_eq_zero fun j _ => hz _ (by dsimp only; omega)
  have z4 : (∑ j : Fin 256, f ⟨1024 + j.val, by omega⟩) = 0 :=
    Finset.sum_eq_zero fun j _ => hz _ (by dsimp only; omega)
  have z5 : (∑ j : Fin 256, f ⟨1280 + j.val, by omega⟩) = 0 :=
    Finset.sum_eq_zero fun j _ => hz _ (by dsimp only; omega)
  rw [sum8 f, z0, z1, z2, z3, z4, z5]
  simp only [add_zero]

/-- When the terms below 1792 vanish, the sum is 0 plus the blocks from offset 1792 on. -/
theorem from7 {M : Type*} [AddCommMonoid M] (f : Fin 2048 → M) (hz : ∀ i : Fin 2048, i.val < 1792 → f i = 0) :
    ∑ i, f i = (0 + (∑ j : Fin 256, f ⟨1792 + j.val, by omega⟩)) := by
  have z0 : (∑ j : Fin 256, f ⟨0 + j.val, by omega⟩) = 0 :=
    Finset.sum_eq_zero fun j _ => hz _ (by dsimp only; omega)
  have z1 : (∑ j : Fin 256, f ⟨256 + j.val, by omega⟩) = 0 :=
    Finset.sum_eq_zero fun j _ => hz _ (by dsimp only; omega)
  have z2 : (∑ j : Fin 256, f ⟨512 + j.val, by omega⟩) = 0 :=
    Finset.sum_eq_zero fun j _ => hz _ (by dsimp only; omega)
  have z3 : (∑ j : Fin 256, f ⟨768 + j.val, by omega⟩) = 0 :=
    Finset.sum_eq_zero fun j _ => hz _ (by dsimp only; omega)
  have z4 : (∑ j : Fin 256, f ⟨1024 + j.val, by omega⟩) = 0 :=
    Finset.sum_eq_zero fun j _ => hz _ (by dsimp only; omega)
  have z5 : (∑ j : Fin 256, f ⟨1280 + j.val, by omega⟩) = 0 :=
    Finset.sum_eq_zero fun j _ => hz _ (by dsimp only; omega)
  have z6 : (∑ j : Fin 256, f ⟨1536 + j.val, by omega⟩) = 0 :=
    Finset.sum_eq_zero fun j _ => hz _ (by dsimp only; omega)
  rw [sum8 f, z0, z1, z2, z3, z4, z5, z6]
  simp only [add_zero]

/-- When the terms from 256 on vanish, the sum is 0 plus the blocks up to offset 0. -/
theorem upto0 {M : Type*} [AddCommMonoid M] (f : Fin 2048 → M) (hz : ∀ i : Fin 2048, 256 ≤ i.val → f i = 0) :
    ∑ i, f i = (0 + (∑ j : Fin 256, f ⟨0 + j.val, by omega⟩)) := by
  have z1 : (∑ j : Fin 256, f ⟨256 + j.val, by omega⟩) = 0 :=
    Finset.sum_eq_zero fun j _ => hz _ (by dsimp only; omega)
  have z2 : (∑ j : Fin 256, f ⟨512 + j.val, by omega⟩) = 0 :=
    Finset.sum_eq_zero fun j _ => hz _ (by dsimp only; omega)
  have z3 : (∑ j : Fin 256, f ⟨768 + j.val, by omega⟩) = 0 :=
    Finset.sum_eq_zero fun j _ => hz _ (by dsimp only; omega)
  have z4 : (∑ j : Fin 256, f ⟨1024 + j.val, by omega⟩) = 0 :=
    Finset.sum_eq_zero fun j _ => hz _ (by dsimp only; omega)
  have z5 : (∑ j : Fin 256, f ⟨1280 + j.val, by omega⟩) = 0 :=
    Finset.sum_eq_zero fun j _ => hz _ (by dsimp only; omega)
  have z6 : (∑ j : Fin 256, f ⟨1536 + j.val, by omega⟩) = 0 :=
    Finset.sum_eq_zero fun j _ => hz _ (by dsimp only; omega)
  have z7 : (∑ j : Fin 256, f ⟨1792 + j.val, by omega⟩) = 0 :=
    Finset.sum_eq_zero fun j _ => hz _ (by dsimp only; omega)
  rw [sum8 f, z1, z2, z3, z4, z5, z6, z7]
  simp only [add_zero]
  rw [zero_add]

/-- When the terms from 512 on vanish, the sum is 0 plus the blocks up to offset 256. -/
theorem upto1 {M : Type*} [AddCommMonoid M] (f : Fin 2048 → M) (hz : ∀ i : Fin 2048, 512 ≤ i.val → f i = 0) :
    ∑ i, f i = ((0 + (∑ j : Fin 256, f ⟨0 + j.val, by omega⟩)) + (∑ j : Fin 256, f ⟨256 + j.val, by omega⟩)) := by
  have z2 : (∑ j : Fin 256, f ⟨512 + j.val, by omega⟩) = 0 :=
    Finset.sum_eq_zero fun j _ => hz _ (by dsimp only; omega)
  have z3 : (∑ j : Fin 256, f ⟨768 + j.val, by omega⟩) = 0 :=
    Finset.sum_eq_zero fun j _ => hz _ (by dsimp only; omega)
  have z4 : (∑ j : Fin 256, f ⟨1024 + j.val, by omega⟩) = 0 :=
    Finset.sum_eq_zero fun j _ => hz _ (by dsimp only; omega)
  have z5 : (∑ j : Fin 256, f ⟨1280 + j.val, by omega⟩) = 0 :=
    Finset.sum_eq_zero fun j _ => hz _ (by dsimp only; omega)
  have z6 : (∑ j : Fin 256, f ⟨1536 + j.val, by omega⟩) = 0 :=
    Finset.sum_eq_zero fun j _ => hz _ (by dsimp only; omega)
  have z7 : (∑ j : Fin 256, f ⟨1792 + j.val, by omega⟩) = 0 :=
    Finset.sum_eq_zero fun j _ => hz _ (by dsimp only; omega)
  rw [sum8 f, z2, z3, z4, z5, z6, z7]
  simp only [add_zero]
  rw [zero_add]

/-- When the terms from 768 on vanish, the sum is 0 plus the blocks up to offset 512. -/
theorem upto2 {M : Type*} [AddCommMonoid M] (f : Fin 2048 → M) (hz : ∀ i : Fin 2048, 768 ≤ i.val → f i = 0) :
    ∑ i, f i = (((0 + (∑ j : Fin 256, f ⟨0 + j.val, by omega⟩)) + (∑ j : Fin 256, f ⟨256 + j.val, by omega⟩)) + (∑ j : Fin 256, f ⟨512 + j.val, by omega⟩)) := by
  have z3 : (∑ j : Fin 256, f ⟨768 + j.val, by omega⟩) = 0 :=
    Finset.sum_eq_zero fun j _ => hz _ (by dsimp only; omega)
  have z4 : (∑ j : Fin 256, f ⟨1024 + j.val, by omega⟩) = 0 :=
    Finset.sum_eq_zero fun j _ => hz _ (by dsimp only; omega)
  have z5 : (∑ j : Fin 256, f ⟨1280 + j.val, by omega⟩) = 0 :=
    Finset.sum_eq_zero fun j _ => hz _ (by dsimp only; omega)
  have z6 : (∑ j : Fin 256, f ⟨1536 + j.val, by omega⟩) = 0 :=
    Finset.sum_eq_zero fun j _ => hz _ (by dsimp only; omega)
  have z7 : (∑ j : Fin 256, f ⟨1792 + j.val, by omega⟩) = 0 :=
    Finset.sum_eq_zero fun j _ => hz _ (by dsimp only; omega)
  rw [sum8 f, z3, z4, z5, z6, z7]
  simp only [add_zero]
  rw [zero_add]

/-- When the terms from 1024 on vanish, the sum is 0 plus the blocks up to offset 768. -/
theorem upto3 {M : Type*} [AddCommMonoid M] (f : Fin 2048 → M) (hz : ∀ i : Fin 2048, 1024 ≤ i.val → f i = 0) :
    ∑ i, f i = ((((0 + (∑ j : Fin 256, f ⟨0 + j.val, by omega⟩)) + (∑ j : Fin 256, f ⟨256 + j.val, by omega⟩)) + (∑ j : Fin 256, f ⟨512 + j.val, by omega⟩)) + (∑ j : Fin 256, f ⟨768 + j.val, by omega⟩)) := by
  have z4 : (∑ j : Fin 256, f ⟨1024 + j.val, by omega⟩) = 0 :=
    Finset.sum_eq_zero fun j _ => hz _ (by dsimp only; omega)
  have z5 : (∑ j : Fin 256, f ⟨1280 + j.val, by omega⟩) = 0 :=
    Finset.sum_eq_zero fun j _ => hz _ (by dsimp only; omega)
  have z6 : (∑ j : Fin 256, f ⟨1536 + j.val, by omega⟩) = 0 :=
    Finset.sum_eq_zero fun j _ => hz _ (by dsimp only; omega)
  have z7 : (∑ j : Fin 256, f ⟨1792 + j.val, by omega⟩) = 0 :=
    Finset.sum_eq_zero fun j _ => hz _ (by dsimp only; omega)
  rw [sum8 f, z4, z5, z6, z7]
  simp only [add_zero]
  rw [zero_add]

/-- When the terms from 1280 on vanish, the sum is 0 plus the blocks up to offset 1024. -/
theorem upto4 {M : Type*} [AddCommMonoid M] (f : Fin 2048 → M) (hz : ∀ i : Fin 2048, 1280 ≤ i.val → f i = 0) :
    ∑ i, f i = (((((0 + (∑ j : Fin 256, f ⟨0 + j.val, by omega⟩)) + (∑ j : Fin 256, f ⟨256 + j.val, by omega⟩)) + (∑ j : Fin 256, f ⟨512 + j.val, by omega⟩)) + (∑ j : Fin 256, f ⟨768 + j.val, by omega⟩)) + (∑ j : Fin 256, f ⟨1024 + j.val, by omega⟩)) := by
  have z5 : (∑ j : Fin 256, f ⟨1280 + j.val, by omega⟩) = 0 :=
    Finset.sum_eq_zero fun j _ => hz _ (by dsimp only; omega)
  have z6 : (∑ j : Fin 256, f ⟨1536 + j.val, by omega⟩) = 0 :=
    Finset.sum_eq_zero fun j _ => hz _ (by dsimp only; omega)
  have z7 : (∑ j : Fin 256, f ⟨1792 + j.val, by omega⟩) = 0 :=
    Finset.sum_eq_zero fun j _ => hz _ (by dsimp only; omega)
  rw [sum8 f, z5, z6, z7]
  simp only [add_zero]
  rw [zero_add]

/-- When the terms from 1536 on vanish, the sum is 0 plus the blocks up to offset 1280. -/
theorem upto5 {M : Type*} [AddCommMonoid M] (f : Fin 2048 → M) (hz : ∀ i : Fin 2048, 1536 ≤ i.val → f i = 0) :
    ∑ i, f i = ((((((0 + (∑ j : Fin 256, f ⟨0 + j.val, by omega⟩)) + (∑ j : Fin 256, f ⟨256 + j.val, by omega⟩)) + (∑ j : Fin 256, f ⟨512 + j.val, by omega⟩)) + (∑ j : Fin 256, f ⟨768 + j.val, by omega⟩)) + (∑ j : Fin 256, f ⟨1024 + j.val, by omega⟩)) + (∑ j : Fin 256, f ⟨1280 + j.val, by omega⟩)) := by
  have z6 : (∑ j : Fin 256, f ⟨1536 + j.val, by omega⟩) = 0 :=
    Finset.sum_eq_zero fun j _ => hz _ (by dsimp only; omega)
  have z7 : (∑ j : Fin 256, f ⟨1792 + j.val, by omega⟩) = 0 :=
    Finset.sum_eq_zero fun j _ => hz _ (by dsimp only; omega)
  rw [sum8 f, z6, z7]
  simp only [add_zero]
  rw [zero_add]

/-- When the terms from 1792 on vanish, the sum is 0 plus the blocks up to offset 1536. -/
theorem upto6 {M : Type*} [AddCommMonoid M] (f : Fin 2048 → M) (hz : ∀ i : Fin 2048, 1792 ≤ i.val → f i = 0) :
    ∑ i, f i = (((((((0 + (∑ j : Fin 256, f ⟨0 + j.val, by omega⟩)) + (∑ j : Fin 256, f ⟨256 + j.val, by omega⟩)) + (∑ j : Fin 256, f ⟨512 + j.val, by omega⟩)) + (∑ j : Fin 256, f ⟨768 + j.val, by omega⟩)) + (∑ j : Fin 256, f ⟨1024 + j.val, by omega⟩)) + (∑ j : Fin 256, f ⟨1280 + j.val, by omega⟩)) + (∑ j : Fin 256, f ⟨1536 + j.val, by omega⟩)) := by
  have z7 : (∑ j : Fin 256, f ⟨1792 + j.val, by omega⟩) = 0 :=
    Finset.sum_eq_zero fun j _ => hz _ (by dsimp only; omega)
  rw [sum8 f, z7]
  simp only [add_zero]
  rw [zero_add]

/-- With no term required to vanish: 0 plus all eight blocks. -/
theorem upto7 {M : Type*} [AddCommMonoid M] (f : Fin 2048 → M) (hz : ∀ i : Fin 2048, 2048 ≤ i.val → f i = 0) :
    ∑ i, f i = ((((((((0 + (∑ j : Fin 256, f ⟨0 + j.val, by omega⟩)) + (∑ j : Fin 256, f ⟨256 + j.val, by omega⟩)) + (∑ j : Fin 256, f ⟨512 + j.val, by omega⟩)) + (∑ j : Fin 256, f ⟨768 + j.val, by omega⟩)) + (∑ j : Fin 256, f ⟨1024 + j.val, by omega⟩)) + (∑ j : Fin 256, f ⟨1280 + j.val, by omega⟩)) + (∑ j : Fin 256, f ⟨1536 + j.val, by omega⟩)) + (∑ j : Fin 256, f ⟨1792 + j.val, by omega⟩)) := by
  rw [sum8 f, zero_add]

end Cert.BlockSums
-- ==== Proof.HiddenLayer.lean ====
/-
  The first layer, as the kernel body stores it in its scratch block.

  The body computes h = max(x · A + a, 0) one 256-column tile at a time and stores the eight tiles side by side in a
  scratch block of 256 rows. For the tile at columns 256 t … 256 t + 255 it only adds up the 256-row blocks t, …, 7
  of the contraction: the rows of A above the tile vanish there (A (i, j) = 0 for i < j), so the blocks left out
  contribute zero and the partial sum is the whole sum. Hence every stored tile is a piece of ONE function of the
  block index, the first layer H, and any later load of the scratch block reads H.
-/
import proofs.«124259_j16827681865729_2_alg».proof.Proof.BlockReads
import proofs.«124259_j16827681865729_2_alg».proof.Proof.BlockSums
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.Body
open Cert.KernelIdeal Cert.KernelIdeal.Gen Cert.TwoLayers

set_option hygiene false in
/-- One tile of the first layer: the stored block read at (r, q) is the first layer's entry at column o + q, the blocks
    of the contraction below the tile's own vanishing because the weight matrix is zero there. -/
macro "hidden_tile " lem:ident o:num : tactic => `(tactic| (
  intro y
  obtain ⟨r, q, rfl⟩ : ∃ (r q : Fin 256), y = ix2 r q := ⟨y 0, y 1, eq_ix2 y⟩
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, kernelRun0_A.sl.cst_213, kernelRun0_A.sl.cst_354, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  simp only [shapeCast_self, maximumf_apply, addf_apply, broadcast_apply, mm_apply, broadcastTo_1b_ab_apply, readAt_unit2, emb_unit2, fin_zero_add, ofBits_zero, H_ix2, Cert.TwoLayers.hidden]
  refine congrArg₂ max (congrArg₂ HAdd.hAdd ?_ rfl) rfl
  refine ($lem (fun i => x0 (ix2 r i) * x1 (ix2 i ⟨$o + q.val, by omega⟩)) (fun i hi => ?_)).symm
  rw [hA i _ (by show i.val < $o + q.val; omega), mul_zero]))

variable (c : Dev nD) (i : grid0.Coords) (arg1 : Memref sig .tc .vmem S256x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S2048x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S256x2048 .f32) (harg7 : arg7.IsWhole)
  (x0 : Vec Ideal S256x2048 .f32) (x1 : Vec Ideal S2048x2048 .f32) (x2 : Vec Ideal S1x2048 .f32) (x3 : Vec Ideal S2048x2048 .f32) (x4 : Vec Ideal S1x2048 .f32)

/-- The first layer over the whole block, as a function of the block index. -/
def H : S256x2048.Idx → EReal := fun y => hidden x0 x1 x2 (y 0) (y 1)

theorem H_ix2 (r : Fin 256) (j : Fin 2048) : H x0 x1 x2 (ix2 r j) = hidden x0 x1 x2 r j := rfl

theorem hpieces (hA : ∀ i j : Fin 2048, i.val < j.val → x1 (ix2 i j) = 0) :
    ∀ p ∈ kernelRun0_A.sl.HS0_8 (F := Ideal) c arg1 harg1 arg2 harg2 arg3 harg3 x0 x1 x2, ∀ y : p.1.shape.Idx, p.2 y = H x0 x1 x2 (p.1.emb y) := by
  unfold kernelRun0_A.sl.HS0_8
  simp only [List.forall_mem_cons, List.not_mem_nil, forall_false, implies_true, and_true]
  refine ⟨?_, ?_, ?_, ?_, ?_, ?_, ?_, ?_⟩
  · hidden_tile Cert.BlockSums.from7 1792
  · hidden_tile Cert.BlockSums.from6 1536
  · hidden_tile Cert.BlockSums.from5 1280
  · hidden_tile Cert.BlockSums.from4 1024
  · hidden_tile Cert.BlockSums.from3 768
  · hidden_tile Cert.BlockSums.from2 512
  · hidden_tile Cert.BlockSums.from1 256
  · hidden_tile Cert.BlockSums.from0 0

/-- The eight stores tile the scratch block, so every index lies in one of them. -/
theorem hcover (y : S256x2048.Idx) :
    ∃ p ∈ kernelRun0_A.sl.HS0_8 (F := Ideal) c arg1 harg1 arg2 harg2 arg3 harg3 x0 x1 x2, y ∈ p.1.set :=
  View.cover_of_tiledL (kernelRun0_A.sl.HS0_8 (F := Ideal) c arg1 harg1 arg2 harg2 arg3 harg3 x0 x1 x2) S256x256.size (by sl_kernel_rfl) y

/-- A load of a column block of the scratch after the eight stores reads the first layer there. -/
theorem scratch_read (hA : ∀ i j : Fin 2048, i.val < j.val → x1 (ix2 i j) = 0) (o : ℕ)
    (inb : ∀ a, (![0, o] : Fin 2 → ℕ) a + (![256, 256] : Fin 2 → ℕ) a ≤ (⟨2, ![256, 2048]⟩ : Shape).size a) (r j : Fin 256) :
    (arg7.view.readCov (kernelRun0_A.sl.HS0_8 (F := Ideal) c arg1 harg1 arg2 harg2 arg3 harg3 x0 x1 x2)
        (Rect.unit (s := ⟨2, ![256, 2048]⟩) ![0, o] ![256, 256] inb).toLoadRect : (⟨2, ![256, 256]⟩ : Shape).Idx → EReal) (ix2 r j)
      = hidden x0 x1 x2 r ⟨o + j.val, lt_col inb j⟩ := by
  rw [View.readCov_eq_canon']
  show View.canon _ (((Rect.unit (s := ⟨2, ![256, 2048]⟩) ![0, o] ![256, 256] inb).emb
    : (⟨2, ![256, 256]⟩ : Shape).Idx → (⟨2, ![256, 2048]⟩ : Shape).Idx) (ix2 r j)) = _
  rw [emb_unit2, View.canon_apply_of_pieces (H x0 x1 x2) _ (hpieces c arg1 harg1 arg2 harg2 arg3 harg3 x0 x1 x2 hA) _
    (hcover c arg1 harg1 arg2 harg2 arg3 harg3 x0 x1 x2 _), H_ix2, fin_zero_add]

theorem v261_apply (hA : ∀ i j : Fin 2048, i.val < j.val → x1 (ix2 i j) = 0) (r j : Fin 256) :
    kernelRun0_A.sl.v261 (F := Ideal) c arg1 harg1 arg2 harg2 arg3 harg3 arg7 x0 x1 x2 (ix2 r j) = hidden x0 x1 x2 r ⟨0 + j.val, by omega⟩ := by
  unfold kernelRun0_A.sl.v261
  exact scratch_read c arg1 harg1 arg2 harg2 arg3 harg3 arg7 x0 x1 x2 hA 0 _ r j

theorem v277_apply (hA : ∀ i j : Fin 2048, i.val < j.val → x1 (ix2 i j) = 0) (r j : Fin 256) :
    kernelRun0_A.sl.v277 (F := Ideal) c arg1 harg1 arg2 harg2 arg3 harg3 arg7 x0 x1 x2 (ix2 r j) = hidden x0 x1 x2 r ⟨256 + j.val, by omega⟩ := by
  unfold kernelRun0_A.sl.v277
  exact scratch_read c arg1 harg1 arg2 harg2 arg3 harg3 arg7 x0 x1 x2 hA 256 _ r j

theorem v298_apply (hA : ∀ i j : Fin 2048, i.val < j.val → x1 (ix2 i j) = 0) (r j : Fin 256) :
    kernelRun0_A.sl.v298 (F := Ideal) c arg1 harg1 arg2 harg2 arg3 harg3 arg7 x0 x1 x2 (ix2 r j) = hidden x0 x1 x2 r ⟨512 + j.val, by omega⟩ := by
  unfold kernelRun0_A.sl.v298
  exact scratch_read c arg1 harg1 arg2 harg2 arg3 harg3 arg7 x0 x1 x2 hA 512 _ r j

theorem v324_apply (hA : ∀ i j : Fin 2048, i.val < j.val → x1 (ix2 i j) = 0) (r j : Fin 256) :
    kernelRun0_A.sl.v324 (F := Ideal) c arg1 harg1 arg2 harg2 arg3 harg3 arg7 x0 x1 x2 (ix2 r j) = hidden x0 x1 x2 r ⟨768 + j.val, by omega⟩ := by
  unfold kernelRun0_A.sl.v324
  exact scratch_read c arg1 harg1 arg2 harg2 arg3 harg3 arg7 x0 x1 x2 hA 768 _ r j

theorem v355_apply (hA : ∀ i j : Fin 2048, i.val < j.val → x1 (ix2 i j) = 0) (r j : Fin 256) :
    kernelRun0_A.sl.v355 (F := Ideal) c arg1 harg1 arg2 harg2 arg3 harg3 arg7 x0 x1 x2 (ix2 r j) = hidden x0 x1 x2 r ⟨1024 + j.val, by omega⟩ := by
  unfold kernelRun0_A.sl.v355
  exact scratch_read c arg1 harg1 arg2 harg2 arg3 harg3 arg7 x0 x1 x2 hA 1024 _ r j

theorem v391_apply (hA : ∀ i j : Fin 2048, i.val < j.val → x1 (ix2 i j) = 0) (r j : Fin 256) :
    kernelRun0_A.sl.v391 (F := Ideal) c arg1 harg1 arg2 harg2 arg3 harg3 arg7 x0 x1 x2 (ix2 r j) = hidden x0 x1 x2 r ⟨1280 + j.val, by omega⟩ := by
  unfold kernelRun0_A.sl.v391
  exact scratch_read c arg1 harg1 arg2 harg2 arg3 harg3 arg7 x0 x1 x2 hA 1280 _ r j

theorem v432_apply (hA : ∀ i j : Fin 2048, i.val < j.val → x1 (ix2 i j) = 0) (r j : Fin 256) :
    kernelRun0_A.sl.v432 (F := Ideal) c arg1 harg1 arg2 harg2 arg3 harg3 arg7 x0 x1 x2 (ix2 r j) = hidden x0 x1 x2 r ⟨1536 + j.val, by omega⟩ := by
  unfold kernelRun0_A.sl.v432
  exact scratch_read c arg1 harg1 arg2 harg2 arg3 harg3 arg7 x0 x1 x2 hA 1536 _ r j

theorem v478_apply (hA : ∀ i j : Fin 2048, i.val < j.val → x1 (ix2 i j) = 0) (r j : Fin 256) :
    kernelRun0_A.sl.v478 (F := Ideal) c arg1 harg1 arg2 harg2 arg3 harg3 arg7 x0 x1 x2 (ix2 r j) = hidden x0 x1 x2 r ⟨1792 + j.val, by omega⟩ := by
  unfold kernelRun0_A.sl.v478
  exact scratch_read c arg1 harg1 arg2 harg2 arg3 harg3 arg7 x0 x1 x2 hA 1792 _ r j

end Cert.KernelIdeal.Body

end
-- ==== Proof.Body.lean ====
/-
  The second layer, and what the kernel body leaves in its output block.

  The body computes y = h · B + b one 256-column tile at a time from the scratch block holding the first layer h.
  For the tile at columns 256 t … 256 t + 255 it only adds up the blocks 0, …, t of the contraction: the rows of B
  below the tile vanish there (B (j, c) = 0 for c < j), so the partial sum is the whole sum. The eight stored tiles
  cover the output block, and each is a piece of the one function G of the block index: the two layers of the
  operand blocks.
-/
import proofs.«124259_j16827681865729_2_alg».proof.Proof.HiddenLayer

noncomputable section

open Idealize.ShloMosaic Idealize.ShloMosaic.TcCoe Idealize.SL.Sem Idealize.ShloMosaic.ValueIdx

namespace Cert.KernelIdeal.Body
open Cert.KernelIdeal Cert.KernelIdeal.Gen Cert.TwoLayers

variable (c : Dev nD) (i : grid0.Coords) (arg1 : Memref sig .tc .vmem S256x2048 .f32) (harg1 : arg1.IsWhole) (arg2 : Memref sig .tc .vmem S2048x2048 .f32) (harg2 : arg2.IsWhole) (arg3 : Memref sig .tc .vmem S1x2048 .f32) (harg3 : arg3.IsWhole) (arg4 : Memref sig .tc .vmem S2048x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S256x2048 .f32) (harg7 : arg7.IsWhole)
  (x0 : Vec Ideal S256x2048 .f32) (x1 : Vec Ideal S2048x2048 .f32) (x2 : Vec Ideal S1x2048 .f32) (x3 : Vec Ideal S2048x2048 .f32) (x4 : Vec Ideal S1x2048 .f32)

set_option hygiene false in
/-- One tile of the second layer: the stored block read at (r, q) is the result's entry at column o + q, the blocks of
    the contraction above the tile's own vanishing because the weight matrix is zero there. -/
macro "out_tile " lem:ident o:num : tactic => `(tactic| (
  intro y
  obtain ⟨r, q, rfl⟩ : ∃ (r q : Fin 256), y = ix2 r q := ⟨y 0, y 1, eq_ix2 y⟩
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, kernelRun0_A.sl.cst_213, kernelRun0_A.sl.cst_354, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  simp only [shapeCast_self, maximumf_apply, addf_apply, broadcast_apply, mm_apply, broadcastTo_1b_ab_apply, readAt_unit2, emb_unit2, fin_zero_add, ofBits_zero, v261_apply c arg1 harg1 arg2 harg2 arg3 harg3 arg7 x0 x1 x2 hA, v277_apply c arg1 harg1 arg2 harg2 arg3 harg3 arg7 x0 x1 x2 hA, v298_apply c arg1 harg1 arg2 harg2 arg3 harg3 arg7 x0 x1 x2 hA, v324_apply c arg1 harg1 arg2 harg2 arg3 harg3 arg7 x0 x1 x2 hA, v355_apply c arg1 harg1 arg2 harg2 arg3 harg3 arg7 x0 x1 x2 hA, v391_apply c arg1 harg1 arg2 harg2 arg3 harg3 arg7 x0 x1 x2 hA, v432_apply c arg1 harg1 arg2 harg2 arg3 harg3 arg7 x0 x1 x2 hA, v478_apply c arg1 harg1 arg2 harg2 arg3 harg3 arg7 x0 x1 x2 hA, Cert.TwoLayers.G_apply, Cert.TwoLayers.out]
  refine congrArg₂ HAdd.hAdd ?_ rfl
  refine ($lem (fun j => Cert.TwoLayers.hidden x0 x1 x2 r j * x3 (ix2 j ⟨$o + q.val, by omega⟩)) (fun j hj => ?_)).symm
  rw [hB j _ (by show $o + q.val < j.val; omega), mul_zero]))

/-- What the body leaves in the output block: the two layers of the blocks it was given. -/
theorem out_eq (hA : ∀ i j : Fin 2048, i.val < j.val → x1 (ix2 i j) = 0) (hB : ∀ j k : Fin 2048, k.val < j.val → x3 (ix2 j k) = 0) :
    out0_A_5 (F := Ideal) c i arg1 harg1 arg2 harg2 arg3 harg3 arg4 harg4 arg5 harg5 arg6 harg6 arg7 harg7 x0 x1 x2 x3 x4 = G x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  funext y
  refine View.canon_apply_of_pieces (G x0 x1 x2 x3 x4) _ ?_ y (cover0_A_5 c i arg1 harg1 arg2 harg2 arg3 harg3 arg4 harg4 arg5 harg5 arg6 harg6 arg7 harg7 x0 x1 x2 x3 x4 y)
  unfold kernelRun0_A
  dsimp only
  simp only [List.forall_mem_cons, List.not_mem_nil, forall_false, implies_true, and_true]
  refine ⟨?_, ?_, ?_, ?_, ?_, ?_, ?_, ?_⟩
  · out_tile Cert.BlockSums.upto7 1792
  · out_tile Cert.BlockSums.upto6 1536
  · out_tile Cert.BlockSums.upto5 1280
  · out_tile Cert.BlockSums.upto4 1024
  · out_tile Cert.BlockSums.upto3 768
  · out_tile Cert.BlockSums.upto2 512
  · out_tile Cert.BlockSums.upto1 256
  · out_tile Cert.BlockSums.upto0 0

end Cert.KernelIdeal.Body
end
-- ==== Proof.Triangles.lean ====
/-
  The upper and the lower triangle of a square matrix, transposed, read at an index.

  The upper triangle of a 2048 × 2048 matrix W is computed entry by entry: at (row, col) the 32-bit words row + (−1)
  and col are compared as signed numbers; where row − 1 ≥ col the entry is 0, elsewhere it is W (row, col). So W is
  kept exactly where row ≤ col. The lower triangle compares row + 0 with col and keeps W where row ≥ col. Either
  result is then transposed, so entry (i, j) of it is the triangle's entry (j, i).

  Rows and columns are below 2048, so as 32-bit words they are small non-negative numbers; the only sum that leaves
  that range is 0 + (−1) = −1, which as a signed number is below every column, as it should be.
-/
import proofs.«124259_j16827681865729_2_alg».proof.Proof.TwoLayers
import Idealize.ShloMosaic.PureOps.Ideal
import Idealize.ShloMosaic.Lib.ValueIdx
import Idealize.ShloMosaic.Lib.ValueLayout
import Idealize.ShloMosaic.Lib.IdealHost
import Idealize.ShloMosaic.Lib.Pipeline.Value

noncomputable section

namespace Cert.Triangles

open Idealize.ShloMosaic Idealize.ShloMosaic.ValueIdx

/-- The shape of a 2048 × 2048 matrix. -/
abbrev S : Shape := ⟨2, ![2048, 2048]⟩
/-- The shape of a scalar. -/
abbrev S0 : Shape := ⟨0, ![]⟩

/-! ## The two comparisons of words -/

/-- For a, b below 2048, as signed 32-bit words: b ≤ a + (−1) exactly when b < a. -/
theorem sle_add_neg_one (a b : ℕ) (ha : a < 2048) (hb : b < 2048) :
    (BitVec.ofNat 32 b).sle (BitVec.ofNat 32 a + 4294967295#32) = decide (b < a) := by
  have hc : (4294967295#32 : BitVec 32).toInt = -1 := by decide
  rw [BitVec.sle_eq_decide, BitVec.toInt_add, BitVec.toInt_ofNat', BitVec.toInt_ofNat', hc]
  congr 1
  simp only [eq_iff_iff, Int.bmod_def]
  omega

/-- For a, b below 2048, as signed 32-bit words: b ≤ a + 0 exactly when b ≤ a. -/
theorem sle_add_zero (a b : ℕ) (ha : a < 2048) (hb : b < 2048) :
    (BitVec.ofNat 32 b).sle (BitVec.ofNat 32 a + 0#32) = decide (b ≤ a) := by
  have hc : (0#32 : BitVec 32).toInt = 0 := by decide
  rw [BitVec.sle_eq_decide, BitVec.toInt_add, BitVec.toInt_ofNat', BitVec.toInt_ofNat', hc]
  congr 1
  simp only [eq_iff_iff, Int.bmod_def]
  omega

/-- The bit of "row − 1 ≥ col" is set exactly when col < row. -/
theorem cmp_triu (r c : Fin 2048) :
    IntOp.cmpi .sge (IntOp.addi (BitVec.ofNat 32 r.val) 4294967295#32) (BitVec.ofNat 32 c.val)
      = if c.val < r.val then 1#1 else 0#1 := by
  show BitVec.ofBool ((BitVec.ofNat 32 c.val).sle (BitVec.ofNat 32 r.val + 4294967295#32)) = _
  rw [sle_add_neg_one r.val c.val r.isLt c.isLt]
  by_cases h : c.val < r.val
  · rw [if_pos h, decide_eq_true h]; rfl
  · rw [if_neg h, decide_eq_false h]; rfl

/-- The bit of "row + 0 ≥ col" is set exactly when col ≤ row. -/
theorem cmp_tril (r c : Fin 2048) :
    IntOp.cmpi .sge (IntOp.addi (BitVec.ofNat 32 r.val) 0#32) (BitVec.ofNat 32 c.val)
      = if c.val ≤ r.val then 1#1 else 0#1 := by
  show BitVec.ofBool ((BitVec.ofNat 32 c.val).sle (BitVec.ofNat 32 r.val + 0#32)) = _
  rw [sle_add_zero r.val c.val r.isLt c.isLt]
  by_cases h : c.val ≤ r.val
  · rw [if_pos h, decide_eq_true h]; rfl
  · rw [if_neg h, decide_eq_false h]; rfl

/-! ## The two triangles, transposed -/

/-- The transposed upper triangle: entry (i, j) is 0 where i < j and W (j, i) elsewhere. -/
theorem triuT_eq (W : FVec Ideal S .f32) (hb : S0.BroadcastsInDim S (![] : Fin 0 → Fin S.rank))
    (ht : S.Transposes [1, 0] S) :
    transpose S [1, 0] (select (cmpi .sge (addi (iotaInDim S 32 0) (broadcastInDim S ![] hb (constantI S0 32 4294967295#32))) (iotaInDim S 32 1))
        (broadcastInDim S ![] hb (constant (F := Ideal) S0 .f32 0x00000000#32)) W) ht = Cert.TwoLayers.upperT W := by
  funext y
  obtain ⟨i, j, rfl⟩ : ∃ i j, y = ix2 i j := ⟨y 0, y 1, eq_ix2 y⟩
  -- entry (i, j) of the transpose is entry (j, i) of the triangle
  rw [transpose_apply [1, 0] _ ht (ix2 i j) (ix2 j i) (fun b => match b with
    | ⟨0, _⟩ => rfl
    | ⟨1, _⟩ => rfl)]
  rw [select_apply]
  show Scalar.select (IntOp.cmpi .sge (IntOp.addi (BitVec.ofNat 32 j.val)
        (broadcastInDim S ![] hb (constantI S0 32 4294967295#32) (ix2 j i))) (BitVec.ofNat 32 i.val))
      (broadcastInDim S ![] hb (constant (F := Ideal) S0 .f32 0x00000000#32) (ix2 j i)) (W (ix2 j i))
    = if i.val < j.val then (0 : EReal) else W (ix2 j i)
  rw [broadcastInDim_scalar_apply, broadcastInDim_scalar_apply, constantI_apply, constant_apply,
    Ideal.ofBits_zero_f32, cmp_triu j i]
  by_cases h : i.val < j.val
  · rw [if_pos h, if_pos h, select_one]
  · rw [if_neg h, if_neg h, select_zero]

/-- The transposed lower triangle: entry (j, c) is 0 where c < j and W (c, j) elsewhere. -/
theorem trilT_eq (W : FVec Ideal S .f32) (hb : S0.BroadcastsInDim S (![] : Fin 0 → Fin S.rank))
    (ht : S.Transposes [1, 0] S) :
    transpose S [1, 0] (select (cmpi .sge (addi (iotaInDim S 32 0) (broadcastInDim S ![] hb (constantI S0 32 0#32))) (iotaInDim S 32 1))
        W (broadcastInDim S ![] hb (constant (F := Ideal) S0 .f32 0x00000000#32))) ht = Cert.TwoLayers.lowerT W := by
  funext y
  obtain ⟨j, c, rfl⟩ : ∃ j c, y = ix2 j c := ⟨y 0, y 1, eq_ix2 y⟩
  -- entry (j, c) of the transpose is entry (c, j) of the triangle
  rw [transpose_apply [1, 0] _ ht (ix2 j c) (ix2 c j) (fun b => match b with
    | ⟨0, _⟩ => rfl
    | ⟨1, _⟩ => rfl)]
  rw [select_apply]
  show Scalar.select (IntOp.cmpi .sge (IntOp.addi (BitVec.ofNat 32 c.val)
        (broadcastInDim S ![] hb (constantI S0 32 0#32) (ix2 c j))) (BitVec.ofNat 32 j.val))
      (W (ix2 c j)) (broadcastInDim S ![] hb (constant (F := Ideal) S0 .f32 0x00000000#32) (ix2 c j))
    = if c.val < j.val then (0 : EReal) else W (ix2 c j)
  rw [broadcastInDim_scalar_apply, broadcastInDim_scalar_apply, constantI_apply, constant_apply,
    Ideal.ofBits_zero_f32, cmp_tril c j]
  by_cases h : c.val < j.val
  · rw [if_pos h, if_neg (by omega), select_zero]
  · rw [if_neg h, if_pos (by omega), select_one]

end Cert.Triangles

end
-- ==== Proof.HostPrefix.lean ====
/-
  What the region's windows 1 to 4 find in their arrays: the contents the operations ahead of the region leave there.

  Ahead of the region the program forms, from the first weight matrix W₁, its upper triangle and transposes it; from
  the second weight matrix W₂, its lower triangle and transposes it; and it lays each of the two bias vectors out as
  a matrix of one row. Nothing else is written to these four arrays, so at the region's entry they hold

    the transposed upper triangle of W₁ (entry (i, j) is W₁ (j, i) where j ≤ i and 0 where i < j),
    the transposed lower triangle of W₂ (entry (j, c) is W₂ (c, j) where j ≤ c and 0 where c < j),
    the row (0, k) ↦ a₁ k, and the row (0, k) ↦ a₂ k.

  Each statement first composes the operations that write the array into one term over the launch contents, and then
  reads that term: the triangles by the two lemmas on the comparison of row and column words, a vector reshaped to
  one row by the row-major position of (0, k), which is k.
-/
import proofs.«124259_j16827681865729_2_alg».proof.Proof.Gen.KernelIdeal.Frame
import proofs.«124259_j16827681865729_2_alg».proof.Proof.TwoLayers
import proofs.«124259_j16827681865729_2_alg».proof.Proof.Triangles
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostPrefix

open Cert.KernelIdeal Cert.KernelIdeal.Gen Cert.TwoLayers
open Idealize.ShloMosaic Idealize.ShloMosaic.TcCoe Idealize.SL.Sem Idealize.ShloMosaic.ValueIdx

variable (m : (ℓ : Loc nD τ sig) → Buf (Elt Ideal) ℓ)

/-- A transport along an equation of a type with itself is the identity. -/
theorem cast_same {α : Sort _} (h : α = α) (a : α) : cast h a = a := eq_of_heq (cast_heq h a)

/-- The second window's array: the transpose of the upper triangle of the first weight matrix. -/
theorem V_v2 (c : Dev nD) : (V m c main_v2 : S2048x2048.Idx → EReal) = upperT (m ((c : Thread nD τ).loc main_arg1)) := by
  have e : (V m c main_v2 : S2048x2048.Idx → EReal)
      = transpose S2048x2048 [1, 0]
          (select (cmpi .sge (addi (iotaInDim S2048x2048 32 0) (broadcastInDim S2048x2048 ![] bcast_S_S2048x2048 (constantI S_ 32 4294967295#32))) (iotaInDim S2048x2048 32 1))
            (broadcastInDim S2048x2048 ![] bcast_S_S2048x2048 (constant (F := Ideal) S_ .f32 0x00000000#32))
            (m (c, main_arg1) : S2048x2048.Idx → EReal))
          transposes_S2048x2048_S2048x2048_1_0 := by
    dsimp only [Gen.V]
    simp only [Gen.hostOps0, Gen.hostOps0_1, Gen.hostOps0_2, List.flatten_cons, List.flatten_nil, List.append_nil,
      List.cons_append, List.nil_append]
    after_results
    simp only [StableHlo.TRef.toBuf, StableHlo.TRef.ofBuf, cast_same]
  exact e.trans (Triangles.triuT_eq _ _ _)

/-- The fourth window's array: the transpose of the lower triangle of the second weight matrix. -/
theorem V_v3 (c : Dev nD) : (V m c main_v3 : S2048x2048.Idx → EReal) = lowerT (m ((c : Thread nD τ).loc main_arg3)) := by
  have e : (V m c main_v3 : S2048x2048.Idx → EReal)
      = transpose S2048x2048 [1, 0]
          (select (cmpi .sge (addi (iotaInDim S2048x2048 32 0) (broadcastInDim S2048x2048 ![] bcast_S_S2048x2048 (constantI S_ 32 0#32))) (iotaInDim S2048x2048 32 1))
            (m (c, main_arg3) : S2048x2048.Idx → EReal)
            (broadcastInDim S2048x2048 ![] bcast_S_S2048x2048 (constant (F := Ideal) S_ .f32 0x00000000#32)))
          transposes_S2048x2048_S2048x2048_1_0 := by
    dsimp only [Gen.V]
    simp only [Gen.hostOps0, Gen.hostOps0_1, Gen.hostOps0_2, List.flatten_cons, List.flatten_nil, List.append_nil,
      List.cons_append, List.nil_append]
    after_results
    simp only [StableHlo.TRef.toBuf, StableHlo.TRef.ofBuf, cast_same]
  exact e.trans (Triangles.trilT_eq _ _ _)

/-- The third window's array: the first bias vector laid out as one row. -/
theorem V_v4 (c : Dev nD) : (V m c main_v4 : S1x2048.Idx → EReal) = row (m ((c : Thread nD τ).loc main_arg2)) := by
  have e : (V m c main_v4 : S1x2048.Idx → EReal)
      = shapeCast S1x2048 (m (c, main_arg2) : S2048.Idx → EReal) shapeCasts_S2048_S1x2048 := by
    dsimp only [Gen.V]
    simp only [Gen.hostOps0, Gen.hostOps0_1, Gen.hostOps0_2, List.flatten_cons, List.flatten_nil, List.append_nil,
      List.cons_append, List.nil_append]
    after_results
    rfl
  rw [e]
  funext y
  rw [eq_ix2 y]
  exact shapeCast_a_1a_apply _ _ _ _

/-- The fifth window's array: the second bias vector laid out as one row. -/
theorem V_v5 (c : Dev nD) : (V m c main_v5 : S1x2048.Idx → EReal) = row (m ((c : Thread nD τ).loc main_arg4)) := by
  have e : (V m c main_v5 : S1x2048.Idx → EReal)
      = shapeCast S1x2048 (m (c, main_arg4) : S2048.Idx → EReal) shapeCasts_S2048_S1x2048 := by
    dsimp only [Gen.V]
    simp only [Gen.hostOps0, Gen.hostOps0_1, Gen.hostOps0_2, List.flatten_cons, List.flatten_nil, List.append_nil,
      List.cons_append, List.nil_append]
    after_results
    rfl
  rw [e]
  funext y
  rw [eq_ix2 y]
  exact shapeCast_a_1a_apply _ _ _ _

end Cert.KernelIdeal.HostPrefix
end
-- ==== Proof.KernelArray.lean ====
/-
  From blocks to the array, for the two-layer kernel on its grid of 64 row blocks.

  The grid has 64 points. Point t reads rows 256 t … 256 t + 255 of x (a block of 256 rows of 2048 entries) and the
  four whole arrays A, a, B, b (each a single block that never moves), and writes back rows 256 t … 256 t + 255 of
  the result. Given that the body at a point leaves the two-layer function G of its five blocks in the output block,
  the result array ends holding G of the five arrays:

    * a block of a whole-array window, read through offsets that are all zero, is the array itself;
    * entry (r, i) of x's block at point t is entry (256 t + r, i) of x;
    * G at row r of a block depends on row r of the block only, so block t of G of the arrays is G of the blocks;
    * every row r of the result lies in the block of point r / 256, and every point writes its block back.
-/
import proofs.«124259_j16827681865729_2_alg».proof.Proof.Body
import proofs.«124259_j16827681865729_2_alg».proof.Proof.HostPrefix
import proofs.«124259_j16827681865729_2_alg».proof.Proof.TwoLayers
import proofs.«124259_j16827681865729_2_alg».proof.Proof.Gen.KernelIdeal.Frame
import proofs.«124259_j16827681865729_2_alg».proof.Proof.Gen.KernelIdeal.Value
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelArray

open Cert.KernelIdeal Cert.KernelIdeal.Gen Cert.KernelIdeal.Value Cert.TwoLayers

variable (m : (ℓ : Loc nD τ sig) → Buf (Elt Ideal) ℓ) (ρ : Dev nD → PrngReg)

/-! ## The index maps, decided over the grid -/

/-- The block index of x's window at point t is (t, 0); the four whole-array windows stay at block (0, 0); the
    output's block index at point t is (t, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The blocks of the whole-array windows are the arrays -/

/-- The one block of A's window, read off any contents of the array, is the contents: its offsets are zero and its
    sizes the array's. -/
theorem read_blk1 (t : Fin cfg0.N) (Y : S2048x2048.Idx → EReal) :
    ((cfg0.win 1).blk t).view.read (Elt Ideal) Y = Y := by
  obtain ⟨-, -, e0, e1, -⟩ := index_facts t
  have hz : (fun a => win0_1.index t a * main_v2.ty.shape.size a) = fun _ => 0 := funext fun a => by
    match a with
    | ⟨0, _⟩ => show win0_1.index t (0 : Fin 2) * 2048 = 0; rw [e0]
    | ⟨1, _⟩ => show win0_1.index t (1 : Fin 2) * 2048 = 0; rw [e1]
  exact Memref.read_access_unit_zero (Elt Ideal) main_v2 hz (fun a => by rw [congrFun hz a]; simp) Y

/-- The one block of a's window is the array. -/
theorem read_blk2 (t : Fin cfg0.N) (Y : S1x2048.Idx → EReal) :
    ((cfg0.win 2).blk t).view.read (Elt Ideal) Y = Y := by
  obtain ⟨-, -, -, -, e0, e1, -⟩ := index_facts t
  have hz : (fun a => win0_2.index t a * main_v4.ty.shape.size a) = fun _ => 0 := funext fun a => by
    match a with
    | ⟨0, _⟩ => show win0_2.index t (0 : Fin 2) * 1 = 0; rw [e0]
    | ⟨1, _⟩ => show win0_2.index t (1 : Fin 2) * 2048 = 0; rw [e1]
  exact Memref.read_access_unit_zero (Elt Ideal) main_v4 hz (fun a => by rw [congrFun hz a]; simp) Y

/-- The one block of B's window is the array. -/
theorem read_blk3 (t : Fin cfg0.N) (Y : S2048x2048.Idx → EReal) :
    ((cfg0.win 3).blk t).view.read (Elt Ideal) Y = Y := by
  obtain ⟨-, -, -, -, -, -, e0, e1, -⟩ := index_facts t
  have hz : (fun a => win0_3.index t a * main_v3.ty.shape.size a) = fun _ => 0 := funext fun a => by
    match a with
    | ⟨0, _⟩ => show win0_3.index t (0 : Fin 2) * 2048 = 0; rw [e0]
    | ⟨1, _⟩ => show win0_3.index t (1 : Fin 2) * 2048 = 0; rw [e1]
  exact Memref.read_access_unit_zero (Elt Ideal) main_v3 hz (fun a => by rw [congrFun hz a]; simp) Y

/-- The one block of b's window is the array. -/
theorem read_blk4 (t : Fin cfg0.N) (Y : S1x2048.Idx → EReal) :
    ((cfg0.win 4).blk t).view.read (Elt Ideal) Y = Y := by
  obtain ⟨-, -, -, -, -, -, -, -, e0, e1, -⟩ := index_facts t
  have hz : (fun a => win0_4.index t a * main_v5.ty.shape.size a) = fun _ => 0 := funext fun a => by
    match a with
    | ⟨0, _⟩ => show win0_4.index t (0 : Fin 2) * 1 = 0; rw [e0]
    | ⟨1, _⟩ => show win0_4.index t (1 : Fin 2) * 2048 = 0; rw [e1]
  exact Memref.read_access_unit_zero (Elt Ideal) main_v5 hz (fun a => by rw [congrFun hz a]; simp) Y

/-- So at every point the four whole-array windows' blocks are the arrays as the region finds them. -/
theorem iblk1_eq (c : Dev nD) (t : Fin cfg0.N) : (iblk m c 1 t : S2048x2048.Idx → EReal) = V m c main_v2 :=
  read_blk1 t (V m c main_v2)
theorem iblk2_eq (c : Dev nD) (t : Fin cfg0.N) : (iblk m c 2 t : S1x2048.Idx → EReal) = V m c main_v4 :=
  read_blk2 t (V m c main_v4)
theorem iblk3_eq (c : Dev nD) (t : Fin cfg0.N) : (iblk m c 3 t : S2048x2048.Idx → EReal) = V m c main_v3 :=
  read_blk3 t (V m c main_v3)
theorem iblk4_eq (c : Dev nD) (t : Fin cfg0.N) : (iblk m c 4 t : S1x2048.Idx → EReal) = V m c main_v5 :=
  read_blk4 t (V m c main_v5)

/-! ## The block of x at point t is rows 256 t … 256 t + 255 of x -/

/-- Entry y of the block of x's window at point t, read off any contents Y of the array, is entry k of Y, where k is
    y moved down by 256 t rows. -/
theorem read_blk0 (t : Fin cfg0.N) (Y : S16384x2048.Idx → EReal) (y : S256x2048.Idx) (k : S16384x2048.Idx)
    (hk0 : (k 0).val = 256 * t.val + (y 0).val) (hk1 : (k 1).val = (y 1).val) :
    ((cfg0.win 0).blk t).view.read (Elt Ideal) Y y = Y k := by
  obtain ⟨e0, e1, -⟩ := index_facts t
  rw [View.read_apply]
  show Y _ = Y k
  congr 1
  funext a
  apply Fin.ext
  match a with
  | ⟨0, _⟩ => show win0_0.index t (0 : Fin 2) * 256 + 1 * (y 0).val = (k 0).val; rw [e0, hk0]; omega
  | ⟨1, _⟩ => show win0_0.index t (1 : Fin 2) * 2048 + 1 * (y 1).val = (k 1).val; rw [e1, hk1]; omega

/-- Row 256 t + r of an array of 16384 rows, for r below 256 and t a grid point. -/
theorem row_lt (t : Fin cfg0.N) (r : Fin 256) : 256 * t.val + r.val < 16384 := by
  have ht : t.val < 64 := lt_of_lt_of_eq t.isLt N_0
  have hr := r.isLt
  omega

/-- Entry (r, i) of x's block at point t is entry (256 t + r, i) of x as the region finds it. -/
theorem iblk0_apply (c : Dev nD) (t : Fin cfg0.N) (r : Fin 256) (i : Fin 2048) :
    (iblk m c 0 t : S256x2048.Idx → EReal) (ix2 r i) = (V m c main_arg0 : S16384x2048.Idx → EReal) (ix2 ⟨256 * t.val + r.val, row_lt t r⟩ i) :=
  read_blk0 t (V m c main_arg0) (ix2 r i) (ix2 ⟨256 * t.val + r.val, row_lt t r⟩ i) rfl rfl

/-! ## What a point writes back is its block of G of the arrays -/

/-- Block t of the result: if row r of the block x0 is row 256 t + r of X, for every r, then G of x0 and the four
    whole arrays is G of X and the four arrays read through the output's block at point t — entry (r, k) of the block
    is entry (256 t + r, k) of the array, and G at a row reads that row of its first argument only. -/
theorem cut_G (t : Fin cfg0.N) (x0 : Mat 256 2048) (X : Mat 16384 2048) (A : Mat 2048 2048) (a : Mat 1 2048)
    (B : Mat 2048 2048) (b : Mat 1 2048)
    (hx : ∀ (r : Fin 256) (i : Fin 2048), x0 (ix2 r i) = X (ix2 ⟨256 * t.val + r.val, row_lt t r⟩ i)) :
    (cfg0.win 5).cut (grid0.coords t) (G x0 A a B b) = ((cfg0.win 5).blk t).view.read (Elt Ideal) (G X A a B b) := by
  obtain ⟨-, -, -, -, -, -, -, -, -, -, e0, e1⟩ := index_facts t
  funext y
  rw [View.read_apply]
  have hemb : ((cfg0.win 5).blk t).view.emb y = (ix2 ⟨256 * t.val + (y 0).val, row_lt t (y 0)⟩ (y 1) : S16384x2048.Idx) := by
    funext d
    apply Fin.ext
    match d with
    | ⟨0, _⟩ => show win0_5.index t (0 : Fin 2) * 256 + 1 * (y 0).val = 256 * t.val + (y 0).val; rw [e0]; omega
    | ⟨1, _⟩ => show win0_5.index t (1 : Fin 2) * 2048 + 1 * (y 1).val = (y 1).val; rw [e1]; omega
  show G x0 A a B b (ix2 (y 0) (y 1)) = G X A a B b (((cfg0.win 5).blk t).view.emb y)
  rw [hemb]
  exact out_congr_row x0 X A a B b (y 0) _ (hx (y 0)) (y 1)

/-- The result as one function of the five argument arrays: the two-layer function of x, the transposed upper
    triangle of the first weight, the first bias as a row, the transposed lower triangle of the second weight and the
    second bias as a row. -/
abbrev result (c : Dev nD) : Mat 16384 2048 :=
  G (m ((c : Thread nD τ).loc main_arg0)) (upperT (m ((c : Thread nD τ).loc main_arg1)))
    (row (m ((c : Thread nD τ).loc main_arg2))) (lowerT (m ((c : Thread nD τ).loc main_arg3)))
    (row (m ((c : Thread nD τ).loc main_arg4)))

/-- What point t writes back is block t of the result: the body leaves G of the point's five blocks; four of them are
    the whole arrays the host prefix left (the triangles' zeros are what the body asks of them) and the fifth is rows
    256 t … 256 t + 255 of x. -/
theorem flushed_eq (c : Dev nD) (t : Fin cfg0.N) :
    (dats m 0 c).flushed 5 t = ((cfg0.win 5).blk t).view.read (Elt Ideal) (result m c) := by
  have e1 : (iblk m c 1 t : S2048x2048.Idx → EReal) = upperT (m ((c : Thread nD τ).loc main_arg1)) :=
    (iblk1_eq m c t).trans (HostPrefix.V_v2 m c)
  have e2 : (iblk m c 2 t : S1x2048.Idx → EReal) = row (m ((c : Thread nD τ).loc main_arg2)) :=
    (iblk2_eq m c t).trans (HostPrefix.V_v4 m c)
  have e3 : (iblk m c 3 t : S2048x2048.Idx → EReal) = lowerT (m ((c : Thread nD τ).loc main_arg3)) :=
    (iblk3_eq m c t).trans (HostPrefix.V_v3 m c)
  have e4 : (iblk m c 4 t : S1x2048.Idx → EReal) = row (m ((c : Thread nD τ).loc main_arg4)) :=
    (iblk4_eq m c t).trans (HostPrefix.V_v5 m c)
  have hA : ∀ i j : Fin 2048, i.val < j.val → (iblk m c 1 t : S2048x2048.Idx → EReal) (ix2 i j) = (0 : EReal) :=
    fun i j h => (congrFun e1 (ix2 i j)).trans (upperT_zero _ i j h)
  have hB : ∀ j k : Fin 2048, k.val < j.val → (iblk m c 3 t : S2048x2048.Idx → EReal) (ix2 j k) = (0 : EReal) :=
    fun j k h => (congrFun e3 (ix2 j k)).trans (lowerT_zero _ j k h)
  have hx : ∀ (r : Fin 256) (i : Fin 2048), (iblk m c 0 t : S256x2048.Idx → EReal) (ix2 r i)
      = (m ((c : Thread nD τ).loc main_arg0) : S16384x2048.Idx → EReal) (ix2 ⟨256 * t.val + r.val, row_lt t r⟩ i) :=
    fun r i => (iblk0_apply m c t r i).trans (congrFun (V_main_arg0 m c) _)
  refine (flushed5_A m c t).trans ?_
  refine (congrArg ((cfg0.win 5).cut (grid0.coords t)) (Body.out_eq c (grid0.coords t) (ms0_0 t) (hs0_0 t) (ms0_1 t) (hs0_1 t)
    (ms0_2 t) (hs0_2 t) (ms0_3 t) (hs0_3 t) (ms0_4 t) (hs0_4 t) (ms0_5 t) (hs0_5 t) scM0_0 (Memref.isWhole_whole _)
    (iblk m c 0 t) (iblk m c 1 t) (iblk m c 2 t) (iblk m c 3 t) (iblk m c 4 t) hA hB)).trans ?_
  rw [e1, e2, e3, e4]
  exact cut_G t (iblk m c 0 t) _ _ _ _ _ hx

/-! ## The blocks cover the result array -/

/-- An index of the result array is in point t's block iff each coordinate is in the block's range on its axis. -/
theorem mem_blk (t : Fin cfg0.N) (i : S16384x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v6).slice (win0_5.rect t)).set ↔ _
  rw [View.set_slice_whole, Rect.mem_set_unit]
  exact Iff.rfl

/-- Every index of the result array lies in the block of the point its row divided by 256 names, and that point
    writes its block back. -/
theorem cover (i : S16384x2048.Idx) :
    ∃ t : Fin cfg0.N, (cfg0.win 5).flush t = true ∧ i ∈ ((cfg0.win 5).blk t).view.set := by
  have h0 : (i 0).val < 16384 := (i 0).isLt
  have h1 : (i 1).val < 2048 := (i 1).isLt
  have hN : cfg0.N = 64 := N_0
  have ht : (i 0).val / 256 < cfg0.N := by rw [hN]; omega
  refine ⟨⟨(i 0).val / 256, ht⟩, flush0_5 _, ?_⟩
  obtain ⟨-, -, -, -, -, -, -, -, -, -, e0, e1⟩ := index_facts ⟨(i 0).val / 256, ht⟩
  rw [mem_blk]
  intro a
  match a with
  | ⟨0, _⟩ =>
    show win0_5.index ⟨(i 0).val / 256, ht⟩ (0 : Fin 2) * 256 ≤ (i 0).val
      ∧ (i 0).val < win0_5.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_5.index ⟨(i 0).val / 256, ht⟩ (1 : Fin 2) * 2048 ≤ (i 1).val
      ∧ (i 1).val < win0_5.index ⟨(i 0).val / 256, ht⟩ (1 : Fin 2) * 2048 + 2048
    rw [e1]
    omega

/-- So the result array ends holding the two-layer function of the five argument arrays. -/
theorem final (c : Dev nD) : (dats m 0 c).arrAt 5 cfg0.N = result m c :=
  (dats m 0 c).arrAt_eq_of_cover 5 (result m c) (fun t _ => flushed_eq m c t) cover

/-! ## The run, read -/

/-- From any memory with zero counters, every weakly fair execution of the program terminates with the result array
    at the two-layer function of the five argument arrays as launched, and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KernelArray

end
-- ==== Proof.RefTerm.lean ====
/-
  The reference's result as one pure term of its five arguments.

  The reference computes y = max(x · Uᵀ + a, 0) · Lᵀ + b, where U is the upper triangle of the first weight matrix and
  L the lower triangle of the second, each triangle spelt as a comparison of a row iota and a column iota selecting
  between the matrix and zeros, and each bias broadcast first to one row and then over all rows.
-/
import proofs.«124259_j16827681865729_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's result as one pure term of its five arguments: the second layer's product of the
    rectified first layer with the transposed lower triangle, plus the broadcast second bias. -/
def resultTerm (x0 : (⟨S16384x2048, .f32⟩ : BufTy).Contents (Elt F)) (x1 : (⟨S2048x2048, .f32⟩ : BufTy).Contents (Elt F))
    (x2 : (⟨S2048, .f32⟩ : BufTy).Contents (Elt F)) (x3 : (⟨S2048x2048, .f32⟩ : BufTy).Contents (Elt F))
    (x4 : (⟨S2048, .f32⟩ : BufTy).Contents (Elt F)) : (⟨S16384x2048, .f32⟩ : BufTy).Contents (Elt F) :=
  addf (Host.dotGeneral dot_S16384x2048_S2048x2048_S16384x2048_1_0_0_1_n_n none (maximumf (addf (Host.dotGeneral dot_S16384x2048_S2048x2048_S16384x2048_1_0_0_1_n_n none x0 (transpose S2048x2048 [1, 0] (select (cmpi .sge (addi (iotaInDim S2048x2048 32 0) (broadcastInDim S2048x2048 ![] bcast_S_S2048x2048 (constantI S_ 32 4294967295#32))) (iotaInDim S2048x2048 32 1)) (broadcastInDim S2048x2048 ![] bcast_S_S2048x2048 (constant S_ .f32 0x00000000#32)) x1) transposes_S2048x2048_S2048x2048_1_0)) (broadcastInDim S16384x2048 ![0, 1] bcast_S1x2048_S16384x2048_0_1 (broadcastInDim S1x2048 ![1] bcast_S2048_S1x2048_1 x2))) (broadcastInDim S16384x2048 ![] bcast_S_S16384x2048 (constant S_ .f32 0x00000000#32))) (transpose S2048x2048 [1, 0] (select (cmpi .sge (addi (iotaInDim S2048x2048 32 0) (broadcastInDim S2048x2048 ![] bcast_S_S2048x2048 (constantI S_ 32 0#32))) (iotaInDim S2048x2048 32 1)) x3 (broadcastInDim S2048x2048 ![] bcast_S_S2048x2048 (constant S_ .f32 0x00000000#32))) transposes_S2048x2048_S2048x2048_1_0)) (broadcastInDim S16384x2048 ![0, 1] bcast_S1x2048_S16384x2048_0_1 (broadcastInDim S1x2048 ![1] bcast_S2048_S1x2048_1 x4))

end Cert.ReferenceIdeal.RefRun

end
-- ==== Proof.RefRun.lean ====
/-
  The reference program's run: its forty-seven host operations in order, and what every weakly fair execution ends
  holding — the result buffer at the composed pure term of the five arguments, the arguments unchanged.

  The operations of the called functions (the two triangles, the three rectifications) stand in their calls' places.
  Their buffers carry the type of the value they hold, and a value enters and leaves such a buffer through a transport
  along the equation between the buffer's type and the value's; at a literal buffer both types are the same, so each
  transport is the identity and the fold of the operations' results is the composed term itself.
-/
import proofs.«124259_j16827681865729_2_alg».proof.Proof.Gen.ReferenceIdeal
import proofs.«124259_j16827681865729_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 47 operations, in order; a called function's operations stand in its call's place, over typed buffers. -/
abbrev ops : List (HloOp τ sig (Elt F)) :=
  [ TRef.nullary (TRef.of (T := ⟨S2048x2048, .i32⟩) main_call0_v0) (iotaInDim S2048x2048 32 0),
    TRef.nullary (TRef.of (T := ⟨S_, .i32⟩) main_call0_c) (constantI S_ 32 4294967295#32),
    TRef.unary (TRef.of (T := ⟨S_, .i32⟩) main_call0_c) (TRef.of (T := ⟨S2048x2048, .i32⟩) main_call0_v1) (broadcastInDim S2048x2048 ![] bcast_S_S2048x2048),
    TRef.binary (TRef.of (T := ⟨S2048x2048, .i32⟩) main_call0_v0) (TRef.of (T := ⟨S2048x2048, .i32⟩) main_call0_v1) (TRef.of (T := ⟨S2048x2048, .i32⟩) main_call0_v2) addi,
    TRef.nullary (TRef.of (T := ⟨S2048x2048, .i32⟩) main_call0_v3) (iotaInDim S2048x2048 32 1),
    TRef.binary (TRef.of (T := ⟨S2048x2048, .i32⟩) main_call0_v2) (TRef.of (T := ⟨S2048x2048, .i32⟩) main_call0_v3) (TRef.of (T := ⟨S2048x2048, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S2048x2048, .f32⟩) main_call0_v5) (broadcastInDim S2048x2048 ![] bcast_S_S2048x2048),
    TRef.ternary (TRef.of (T := ⟨S2048x2048, .i1⟩) main_call0_v4) (TRef.of (T := ⟨S2048x2048, .f32⟩) main_call0_v5) (TRef.of (T := ⟨S2048x2048, .f32⟩) main_arg1) (TRef.of (T := ⟨S2048x2048, .f32⟩) main_v0) select,
    TRef.nullary (TRef.of (T := ⟨S2048x2048, .i32⟩) main_call1_v0) (iotaInDim S2048x2048 32 0),
    TRef.nullary (TRef.of (T := ⟨S_, .i32⟩) main_call1_c) (constantI S_ 32 0#32),
    TRef.unary (TRef.of (T := ⟨S_, .i32⟩) main_call1_c) (TRef.of (T := ⟨S2048x2048, .i32⟩) main_call1_v1) (broadcastInDim S2048x2048 ![] bcast_S_S2048x2048),
    TRef.binary (TRef.of (T := ⟨S2048x2048, .i32⟩) main_call1_v0) (TRef.of (T := ⟨S2048x2048, .i32⟩) main_call1_v1) (TRef.of (T := ⟨S2048x2048, .i32⟩) main_call1_v2) addi,
    TRef.nullary (TRef.of (T := ⟨S2048x2048, .i32⟩) main_call1_v3) (iotaInDim S2048x2048 32 1),
    TRef.binary (TRef.of (T := ⟨S2048x2048, .i32⟩) main_call1_v2) (TRef.of (T := ⟨S2048x2048, .i32⟩) main_call1_v3) (TRef.of (T := ⟨S2048x2048, .i1⟩) main_call1_v4) (cmpi .sge),
    TRef.nullary (TRef.of (T := ⟨S_, .f32⟩) main_call1_cst) (constant S_ .f32 0x00000000#32),
    TRef.unary (TRef.of (T := ⟨S_, .f32⟩) main_call1_cst) (TRef.of (T := ⟨S2048x2048, .f32⟩) main_call1_v5) (broadcastInDim S2048x2048 ![] bcast_S_S2048x2048),
    TRef.ternary (TRef.of (T := ⟨S2048x2048, .i1⟩) main_call1_v4) (TRef.of (T := ⟨S2048x2048, .f32⟩) main_arg3) (TRef.of (T := ⟨S2048x2048, .f32⟩) main_call1_v5) (TRef.of (T := ⟨S2048x2048, .f32⟩) main_v1) select,
    unary main_v0 main_v2 ((transpose S2048x2048 [1, 0] · transposes_S2048x2048_S2048x2048_1_0) : (⟨S2048x2048, .f32⟩ : BufTy).Contents (Elt F) → (⟨S2048x2048, .f32⟩ : BufTy).Contents (Elt F)),
    binary main_arg0 main_v2 main_v3 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_arg2 main_v4 (broadcastInDim S1x2048 ![1] bcast_S2048_S1x2048_1 : (⟨S2048, .f32⟩ : BufTy).Contents (Elt F) → (⟨S1x2048, .f32⟩ : BufTy).Contents (Elt F)),
    unary main_v4 main_v5 (broadcastInDim S16384x2048 ![0, 1] bcast_S1x2048_S16384x2048_0_1 : (⟨S1x2048, .f32⟩ : BufTy).Contents (Elt F) → (⟨S16384x2048, .f32⟩ : BufTy).Contents (Elt F)),
    binary main_v3 main_v5 main_v6 (addf : (⟨S16384x2048, .f32⟩ : BufTy).Contents (Elt F) → (⟨S16384x2048, .f32⟩ : BufTy).Contents (Elt F) → (⟨S16384x2048, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x2048, .f32⟩) main_call2_v0) (broadcastInDim S16384x2048 ![] bcast_S_S16384x2048),
    TRef.binary (TRef.of (T := ⟨S16384x2048, .f32⟩) main_v6) (TRef.of (T := ⟨S16384x2048, .f32⟩) main_call2_v0) (TRef.of (T := ⟨S16384x2048, .f32⟩) main_v7) maximumf,
    unary main_v1 main_v8 ((transpose S2048x2048 [1, 0] · transposes_S2048x2048_S2048x2048_1_0) : (⟨S2048x2048, .f32⟩ : BufTy).Contents (Elt F) → (⟨S2048x2048, .f32⟩ : BufTy).Contents (Elt F)),
    binary main_v7 main_v8 main_v9 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_arg4 main_v10 (broadcastInDim S1x2048 ![1] bcast_S2048_S1x2048_1 : (⟨S2048, .f32⟩ : BufTy).Contents (Elt F) → (⟨S1x2048, .f32⟩ : BufTy).Contents (Elt F)),
    unary main_v10 main_v11 (broadcastInDim S16384x2048 ![0, 1] bcast_S1x2048_S16384x2048_0_1 : (⟨S1x2048, .f32⟩ : BufTy).Contents (Elt F) → (⟨S16384x2048, .f32⟩ : BufTy).Contents (Elt F)),
    binary main_v9 main_v11 main_v12 (addf : (⟨S16384x2048, .f32⟩ : BufTy).Contents (Elt F) → (⟨S16384x2048, .f32⟩ : BufTy).Contents (Elt F) → (⟨S16384x2048, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16384x2048, .f32⟩) main_call3_v0) (broadcastInDim S16384x2048 ![] bcast_S_S16384x2048),
    TRef.binary (TRef.of (T := ⟨S16384x2048, .f32⟩) main_v12) (TRef.of (T := ⟨S16384x2048, .f32⟩) main_call3_v0) (TRef.of (T := ⟨S16384x2048, .f32⟩) main_v13) maximumf,
    unary main_v0 main_v14 ((transpose S2048x2048 [1, 0] · transposes_S2048x2048_S2048x2048_1_0) : (⟨S2048x2048, .f32⟩ : BufTy).Contents (Elt F) → (⟨S2048x2048, .f32⟩ : BufTy).Contents (Elt F)),
    binary main_arg0 main_v14 main_v15 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_arg2 main_v16 (broadcastInDim S1x2048 ![1] bcast_S2048_S1x2048_1 : (⟨S2048, .f32⟩ : BufTy).Contents (Elt F) → (⟨S1x2048, .f32⟩ : BufTy).Contents (Elt F)),
    unary main_v16 main_v17 (broadcastInDim S16384x2048 ![0, 1] bcast_S1x2048_S16384x2048_0_1 : (⟨S1x2048, .f32⟩ : BufTy).Contents (Elt F) → (⟨S16384x2048, .f32⟩ : BufTy).Contents (Elt F)),
    binary main_v15 main_v17 main_v18 (addf : (⟨S16384x2048, .f32⟩ : BufTy).Contents (Elt F) → (⟨S16384x2048, .f32⟩ : BufTy).Contents (Elt F) → (⟨S16384x2048, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16384x2048, .f32⟩) main_call4_v0) (broadcastInDim S16384x2048 ![] bcast_S_S16384x2048),
    TRef.binary (TRef.of (T := ⟨S16384x2048, .f32⟩) main_v18) (TRef.of (T := ⟨S16384x2048, .f32⟩) main_call4_v0) (TRef.of (T := ⟨S16384x2048, .f32⟩) main_v19) maximumf,
    unary main_v1 main_v20 ((transpose S2048x2048 [1, 0] · transposes_S2048x2048_S2048x2048_1_0) : (⟨S2048x2048, .f32⟩ : BufTy).Contents (Elt F) → (⟨S2048x2048, .f32⟩ : BufTy).Contents (Elt F)),
    binary main_v19 main_v20 main_v21 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_arg4 main_v22 (broadcastInDim S1x2048 ![1] bcast_S2048_S1x2048_1 : (⟨S2048, .f32⟩ : BufTy).Contents (Elt F) → (⟨S1x2048, .f32⟩ : BufTy).Contents (Elt F)),
    unary main_v22 main_v23 (broadcastInDim S16384x2048 ![0, 1] bcast_S1x2048_S16384x2048_0_1 : (⟨S1x2048, .f32⟩ : BufTy).Contents (Elt F) → (⟨S16384x2048, .f32⟩ : BufTy).Contents (Elt F)),
    binary main_v21 main_v23 main_v24 (addf : (⟨S16384x2048, .f32⟩ : BufTy).Contents (Elt F) → (⟨S16384x2048, .f32⟩ : BufTy).Contents (Elt F) → (⟨S16384x2048, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- A transport along an equation of a type with itself is the identity. -/
theorem cast_same {α : Sort _} (h : α = α) (a : α) : cast h a = a := eq_of_heq (cast_heq h a)

set_option maxRecDepth 8192 in
set_option maxHeartbeats 2000000 in
/-- What the result buffer holds after the operations, from any contents: the composed term of the five arguments. -/
theorem v24_eq (V : Valuation τ sig (Elt F)) :
    after ops V (Proc.devRef .tc main_v24) = resultTerm (V (Proc.devRef .tc main_arg0)) (V (Proc.devRef .tc main_arg1))
      (V (Proc.devRef .tc main_arg2)) (V (Proc.devRef .tc main_arg3)) (V (Proc.devRef .tc main_arg4)) := by
  after_results_simp
  simp only [StableHlo.TRef.toBuf, StableHlo.TRef.ofBuf, cast_same, resultTerm]

set_option maxRecDepth 8192 in
set_option maxHeartbeats 2000000 in
/-- No operation writes the first argument. -/
theorem arg0_eq (V : Valuation τ sig (Elt F)) : after ops V (Proc.devRef .tc main_arg0) = V (Proc.devRef .tc main_arg0) := by
  after_results_simp

set_option maxRecDepth 8192 in
set_option maxHeartbeats 2000000 in
/-- No operation writes the second argument. -/
theorem arg1_eq (V : Valuation τ sig (Elt F)) : after ops V (Proc.devRef .tc main_arg1) = V (Proc.devRef .tc main_arg1) := by
  after_results_simp

set_option maxRecDepth 8192 in
set_option maxHeartbeats 2000000 in
/-- No operation writes the third argument. -/
theorem arg2_eq (V : Valuation τ sig (Elt F)) : after ops V (Proc.devRef .tc main_arg2) = V (Proc.devRef .tc main_arg2) := by
  after_results_simp

set_option maxRecDepth 8192 in
set_option maxHeartbeats 2000000 in
/-- No operation writes the fourth argument. -/
theorem arg3_eq (V : Valuation τ sig (Elt F)) : after ops V (Proc.devRef .tc main_arg3) = V (Proc.devRef .tc main_arg3) := by
  after_results_simp

set_option maxRecDepth 8192 in
set_option maxHeartbeats 2000000 in
/-- No operation writes the fifth argument. -/
theorem arg4_eq (V : Valuation τ sig (Elt F)) : after ops V (Proc.devRef .tc main_arg4) = V (Proc.devRef .tc main_arg4) := by
  after_results_simp

set_option maxRecDepth 8192 in
set_option maxHeartbeats 2000000 in
/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = resultTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v24).trans (v24_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RefRun

end
-- ==== Proof.LibDotHostRead.lean ====
/-
  The host's general dot product read at an entry.

  For a plain two-dimensional product — rows × contraction times contraction × columns, one contracted axis, no batch
  axis — the host's general dot product at the entry (r, k) is the same finite sum Σ j, lhs (r, j) · rhs (j, k) over the
  contraction's coordinate j that a matrix unit's product into a zero accumulator computes, so the two forms meet term
  by term. The dimension record enters only through the four coordinate facts of a plain record.
-/
import Idealize.ShloMosaic.PureOps.Ideal
import Idealize.ShloMosaic.PureOps.Ideal.Laws
import Idealize.ShloMosaic.Lib.ValueIdx
import proofs.«124259_j16827681865729_2_alg».proof.Proof.LibDotRead

noncomputable section

namespace Cert.DotRead

open Idealize.ShloMosaic Idealize.ShloMosaic.ValueIdx

/-- Entry (r, k) of the host's general dot product of a plain record is Σ j, lhs (r, j) · rhs (j, k). -/
theorem dotGeneral_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    Host.dotGeneral (F := Ideal) d prec lhs rhs (ix2 r k) = ∑ j : Fin n, lhs (ix2 r j) * rhs (ix2 j k) := by
  simp only [Host.dotGeneral]
  rw [Ideal.dotGeneral_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.RefRead.lean ====
/-
  The reference's result is the two layers of its arguments.

  Read at an entry (r, c): the outer sum of products is the host's general dot product, entry by entry; the inner
  operand is the rectified first layer, whose own sum of products is again a general dot product; the two weight
  operands are the transposed triangles; each bias, broadcast to one row and then over all rows, reads its entry c;
  and the rectifier's zero is the broadcast of the zero constant.
-/
import proofs.«124259_j16827681865729_2_alg».proof.Proof.RefTerm
import proofs.«124259_j16827681865729_2_alg».proof.Proof.TwoLayers
import proofs.«124259_j16827681865729_2_alg».proof.Proof.Triangles
import proofs.«124259_j16827681865729_2_alg».proof.Proof.LibDotHostRead
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Cert.TwoLayers Idealize.ShloMosaic Idealize.ShloMosaic.TcCoe Idealize.SL.Sem
open Idealize.ShloMosaic.ValueIdx

/-- The reference's one dimension record is a plain product: rows × contraction times contraction × columns. -/
theorem plain : Cert.DotRead.Plain (m := 16384) (n := 2048) (p := 2048) dot_S16384x2048_S2048x2048_S16384x2048_1_0_0_1_n_n :=
  ⟨rfl, rfl, fun _ _ => rfl, fun _ _ => rfl, fun _ _ => rfl, fun _ _ => rfl⟩

/-- A vector broadcast to one row and then over all rows reads, at (r, c), its entry c. -/
theorem bias_apply (v : (⟨S2048, .f32⟩ : BufTy).Contents (Elt Ideal)) (r : Fin 16384) (c : Fin 2048) :
    broadcastInDim S16384x2048 ![0, 1] bcast_S1x2048_S16384x2048_0_1 (broadcastInDim S1x2048 ![1] bcast_S2048_S1x2048_1 v) (ix2 r c)
      = row v (ix2 0 c) := by
  rw [broadcastInDim_apply ![0, 1] bcast_S1x2048_S16384x2048_0_1 _ (ix2 r c) (ix2 (0 : Fin 1) c) (fun a => by
    match a with
    | ⟨0, _⟩ => rfl
    | ⟨1, _⟩ => rfl)]
  rw [broadcastInDim_apply ![1] bcast_S2048_S1x2048_1 v (ix2 (0 : Fin 1) c) (ix1 c) (fun a => by
    match a with
    | ⟨0, _⟩ => rfl)]
  rfl

/-- The rectifier's zero operand reads 0 everywhere. -/
theorem zero_apply (r : Fin 16384) (j : Fin 2048) :
    broadcastInDim S16384x2048 ![] bcast_S_S16384x2048 (constant (F := Ideal) S_ .f32 0x00000000#32) (ix2 r j) = 0 := by
  rw [broadcastInDim_apply ![] bcast_S_S16384x2048 _ (ix2 r j) ix0 (fun a => a.elim0)]
  exact Ideal.ofBits_zero_f32

theorem resultTerm_eq (x0 : (⟨S16384x2048, .f32⟩ : BufTy).Contents (Elt Ideal)) (x1 : (⟨S2048x2048, .f32⟩ : BufTy).Contents (Elt Ideal))
    (x2 : (⟨S2048, .f32⟩ : BufTy).Contents (Elt Ideal)) (x3 : (⟨S2048x2048, .f32⟩ : BufTy).Contents (Elt Ideal))
    (x4 : (⟨S2048, .f32⟩ : BufTy).Contents (Elt Ideal)) :
    RefRun.resultTerm (F := Ideal) x0 x1 x2 x3 x4 = G x0 (upperT x1) (row x2) (lowerT x3) (row x4) := by
  unfold RefRun.resultTerm
  rw [Cert.Triangles.triuT_eq, Cert.Triangles.trilT_eq]
  funext y
  obtain ⟨r, c, rfl⟩ : ∃ (r : Fin 16384) (c : Fin 2048), y = ix2 r c := ⟨y 0, y 1, eq_ix2 y⟩
  rw [addf_apply, Cert.DotRead.dotGeneral_apply _ plain, bias_apply, G_apply]
  unfold out
  refine congrArg₂ HAdd.hAdd (Finset.sum_congr rfl fun j _ => ?_) rfl
  refine congrArg (· * _) ?_
  rw [maximumf_apply, addf_apply, Cert.DotRead.dotGeneral_apply _ plain, bias_apply, zero_apply]
  rfl

end Cert.ReferenceIdeal.RefRead

end
-- ==== Proof.lean ====
/-
  Two triangular dense layers fused in one kernel, against the same two layers written with whole matrix products.

  The kernel computes y = max(x · A + a, 0) · B + b over 64 blocks of 256 rows of x, where A is the transpose of the
  upper triangle of the first weight matrix and B the transpose of the lower triangle of the second. Inside a row
  block it works on 256-column tiles and leaves out the 256 × 256 blocks of the two contractions that lie wholly in
  the zero parts of A and B; a block left out contributes a sum of products with zero, so every tile's partial sum
  is the whole sum, on the extended reals as on the reals, with no condition on the inputs. The reference computes
  the same two layers with whole general dot products (its rectified second layer in the middle is never used by its
  result). Both results are the one function G of the five arguments (Cert.TwoLayers.G): the kernel's array by reading
  its body's stores tile by tile and its blocks into the array, the reference's by reading its composed term at an
  entry. The idealized kernel is the kernel's own text read on the extended reals, so nothing is owed for that step.
-/
import proofs.«124259_j16827681865729_2_alg».proof.Defs
import proofs.«124259_j16827681865729_2_alg».proof.Proof.Gen.Kernel
import proofs.«124259_j16827681865729_2_alg».proof.Proof.Gen.Kernel.Skeleton
import proofs.«124259_j16827681865729_2_alg».proof.Proof.Gen.Kernel.Launch
import proofs.«124259_j16827681865729_2_alg».proof.Proof.Gen.Kernel.Points
import proofs.«124259_j16827681865729_2_alg».proof.Proof.Gen.Kernel.Frame
import proofs.«124259_j16827681865729_2_alg».proof.Proof.Gen.KernelIdeal
import proofs.«124259_j16827681865729_2_alg».proof.Proof.Gen.KernelIdeal.Skeleton
import proofs.«124259_j16827681865729_2_alg».proof.Proof.Gen.KernelIdeal.Launch
import proofs.«124259_j16827681865729_2_alg».proof.Proof.Gen.KernelIdeal.Points
import proofs.«124259_j16827681865729_2_alg».proof.Proof.Gen.KernelIdeal.Frame
import proofs.«124259_j16827681865729_2_alg».proof.Proof.Gen.KernelIdeal.Value
import proofs.«124259_j16827681865729_2_alg».proof.Proof.Gen.ReferenceIdeal
import proofs.«124259_j16827681865729_2_alg».proof.Proof.Gen.Pre_finite_inputs
import proofs.«124259_j16827681865729_2_alg».proof.Proof.KernelArray
import proofs.«124259_j16827681865729_2_alg».proof.Proof.RefRun
import proofs.«124259_j16827681865729_2_alg».proof.Proof.RefRead
import Idealize.ShloMosaic.Adequacy
import Idealize.ShloMosaic.Init

noncomputable section

namespace Cert.Proof

open Idealize.ShloMosaic Idealize.SL.Sem

/-- The kernel as printed runs to the end, nothing faulting, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with the result forgotten: it ends, and its arguments are as they were. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories that agree on the five arguments both programs end with the same result array: the two layers G of
    the arguments — the kernel's by its blocks, the reference's by its composed term read at an entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelArray.result m c, Cert.KernelIdeal.KernelArray.run m ρ, ?_⟩
  refine (θ_run Cert.ReferenceIdeal.defs _ _).mono (fun _ h c => ⟨?_, (h c).2⟩)
    (Cert.ReferenceIdeal.RefRun.run (F := Ideal) m' ρ')
  rw [(h c).1, Cert.ReferenceIdeal.RefRead.resultTerm_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
